-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x4 : Shape := ⟨2, ![1024, 4]⟩
abbrev S32000x1024 : Shape := ⟨2, ![32000, 1024]⟩
abbrev S512x1024x3 : Shape := ⟨3, ![512, 1024, 3]⟩
abbrev S512 : Shape := ⟨1, ![512]⟩
abbrev S32000x512 : Shape := ⟨2, ![32000, 512]⟩
abbrev S32000 : Shape := ⟨1, ![32000]⟩
abbrev S_ : Shape := ⟨0, ![]⟩

class Facts : Prop where
  bcast_S_S32000x1024 : S_.BroadcastsInDim S32000x1024 (![] : Fin 0 → Fin S32000x1024.rank)
  reducesTo_S32000x1024_S_d0_1 : S32000x1024.ReducesTo [0, 1] S_
  h_S_ : 0 < S_.numel
  bcast_S_S512x1024x3 : S_.BroadcastsInDim S512x1024x3 (![] : Fin 0 → Fin S512x1024x3.rank)
  reducesTo_S512x1024x3_S_d0_1_2 : S512x1024x3.ReducesTo [0, 1, 2] S_
  bcast_S_S512 : S_.BroadcastsInDim S512 (![] : Fin 0 → Fin S512.rank)
  reducesTo_S512_S_d0 : S512.ReducesTo [0] S_
  bcast_S_S32000x512 : S_.BroadcastsInDim S32000x512 (![] : Fin 0 → Fin S32000x512.rank)
  reducesTo_S32000x512_S_d0_1 : S32000x512.ReducesTo [0, 1] S_
  bcast_S_S32000 : S_.BroadcastsInDim S32000 (![] : Fin 0 → Fin S32000.rank)
  reducesTo_S32000_S_d0 : S32000.ReducesTo [0] S_

variable [Facts]

def fn_part1 {F : FTy → Type} [FloatOps F] (main_arg5 : FVec F S32000 .f32) (main_v13 : IVec S_ 1) (main_v16 : IVec S32000x512 1) : IVec S_ 1 :=
  let main_c_5 : IVec S_ 1 := constantI S_ 1 1#1
  let main_v17 : IVec S_ 1 := (fun x v => Host.reduce IntOp.andi x v reducesTo_S32000x512_S_d0_1 h_S_) main_v16 main_c_5
  let main_v18 : IVec S_ 1 := andi main_v13 main_v17
  let main_v19 : FVec F S32000 .f32 := Host.absf main_arg5
  let main_cst_6 : FVec F S_ .f32 := constant S_ .f32 0x7F800000#32
  let main_v20 : FVec F S32000 .f32 := broadcastInDim S32000 ![] bcast_S_S32000 main_cst_6
  let main_v21 : IVec S32000 1 := cmpf .olt main_v19 main_v20
  let main_c_7 : IVec S_ 1 := constantI S_ 1 1#1
  let main_v22 : IVec S_ 1 := (fun x v => Host.reduce IntOp.andi x v reducesTo_S32000_S_d0 h_S_) main_v21 main_c_7
  let main_v23 : IVec S_ 1 := andi main_v18 main_v22
  main_v23

def fn {F : FTy → Type} [FloatOps F] (main_arg0 : IVec S1024x4 32) (main_arg1 : FVec F S32000x1024 .f32) (main_arg2 : FVec F S512x1024x3 .f32) (main_arg3 : FVec F S512 .f32) (main_arg4 : FVec F S32000x512 .f32) (main_arg5 : FVec F S32000 .f32) : IVec S_ 1 :=
  let main_v0 : FVec F S32000x1024 .f32 := Host.absf main_arg1
  let main_cst : FVec F S_ .f32 := constant S_ .f32 0x7F800000#32
  let main_v1 : FVec F S32000x1024 .f32 := broadcastInDim S32000x1024 ![] bcast_S_S32000x1024 main_cst
  let main_v2 : IVec S32000x1024 1 := cmpf .olt main_v0 main_v1
  let main_c : IVec S_ 1 := constantI S_ 1 1#1
  let main_v3 : IVec S_ 1 := (fun x v => Host.reduce IntOp.andi x v reducesTo_S32000x1024_S_d0_1 h_S_) main_v2 main_c
  let main_v4 : FVec F S512x1024x3 .f32 := Host.absf main_arg2
  let main_cst_0 : FVec F S_ .f32 := constant S_ .f32 0x7F800000#32
  let main_v5 : FVec F S512x1024x3 .f32 := broadcastInDim S512x1024x3 ![] bcast_S_S512x1024x3 main_cst_0
  let main_v6 : IVec S512x1024x3 1 := cmpf .olt main_v4 main_v5
  let main_c_1 : IVec S_ 1 := constantI S_ 1 1#1
  let main_v7 : IVec S_ 1 := (fun x v => Host.reduce IntOp.andi x v reducesTo_S512x1024x3_S_d0_1_2 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S32000x512 .f32 := Host.absf main_arg4
  let main_cst_4 : FVec F S_ .f32 := constant S_ .f32 0x7F800000#32
  let main_v15 : FVec F S32000x512 .f32 := broadcastInDim S32000x512 ![] bcast_S_S32000x512 main_cst_4
  let main_v16 : IVec S32000x512 1 := cmpf .olt main_v14 main_v15
  fn_part1 (F := F) main_arg5 main_v13 main_v16
-- ==== Kernel.lean ====
abbrev S1024x4 : Shape := ⟨2, ![1024, 4]⟩
abbrev S32000x1024 : Shape := ⟨2, ![32000, 1024]⟩
abbrev S512x1024x3 : Shape := ⟨3, ![512, 1024, 3]⟩
abbrev S512 : Shape := ⟨1, ![512]⟩
abbrev S32000x512 : Shape := ⟨2, ![32000, 512]⟩
abbrev S32000 : Shape := ⟨1, ![32000]⟩
abbrev S_ : Shape := ⟨0, ![]⟩
abbrev S2x4 : Shape := ⟨2, ![2, 4]⟩
abbrev S1026x4 : Shape := ⟨2, ![1026, 4]⟩
abbrev S1026x4x1 : Shape := ⟨3, ![1026, 4, 1]⟩
abbrev S1026x4x1024 : Shape := ⟨3, ![1026, 4, 1024]⟩
abbrev S1024x4x1024 : Shape := ⟨3, ![1024, 4, 1024]⟩
abbrev S4096x1024 : Shape := ⟨2, ![4096, 1024]⟩
abbrev S3x1024x512 : Shape := ⟨3, ![3, 1024, 512]⟩
abbrev S1x512 : Shape := ⟨2, ![1, 512]⟩
abbrev S4096x512 : Shape := ⟨2, ![4096, 512]⟩
abbrev S1024x1024 : Shape := ⟨2, ![1024, 1024]⟩
abbrev S1024x512 : Shape := ⟨2, ![1024, 512]⟩
abbrev S1x1024x512 : Shape := ⟨3, ![1, 1024, 512]⟩
abbrev S1x32000 : Shape := ⟨2, ![1, 32000]⟩
abbrev S4096x32000 : Shape := ⟨2, ![4096, 32000]⟩
abbrev S3200x512 : Shape := ⟨2, ![3200, 512]⟩
abbrev S1x3200 : Shape := ⟨2, ![1, 3200]⟩
abbrev S1024x3200 : Shape := ⟨2, ![1024, 3200]⟩
abbrev S1024x4x32000 : Shape := ⟨3, ![1024, 4, 32000]⟩

abbrev nBuf : Space → Nat
  | .hbm => 34
  | .vmem => 18
  | .smem => 0
  | _ => 0

abbrev bufTy : (tb : Table) → Fin (tcTables nBuf tb) → BufTy
  | .hbm, ⟨0, _⟩ => ⟨S1024x4, .i32⟩
  | .hbm, ⟨1, _⟩ => ⟨S32000x1024, .f32⟩
  | .hbm, ⟨2, _⟩ => ⟨S512x1024x3, .f32⟩
  | .hbm, ⟨3, _⟩ => ⟨S512, .f32⟩
  | .hbm, ⟨4, _⟩ => ⟨S32000x512, .f32⟩
  | .hbm, ⟨5, _⟩ => ⟨S32000, .f32⟩
  | .hbm, ⟨6, _⟩ => ⟨S_, .i32⟩
  | .hbm, ⟨7, _⟩ => ⟨S2x4, .i32⟩
  | .hbm, ⟨8, _⟩ => ⟨S1026x4, .i32⟩
  | .hbm, ⟨9, _⟩ => ⟨S_, .i32⟩
  | .hbm, ⟨10, _⟩ => ⟨S1026x4, .i32⟩
  | .hbm, ⟨11, _⟩ => ⟨S1026x4, .i1⟩
  | .hbm, ⟨12, _⟩ => ⟨S_, .i32⟩
  | .hbm, ⟨13, _⟩ => ⟨S1026x4, .i32⟩
  | .hbm, ⟨14, _⟩ => ⟨S1026x4, .i32⟩
  | .hbm, ⟨15, _⟩ => ⟨S1026x4, .i32⟩
  | .hbm, ⟨16, _⟩ => ⟨S1026x4x1, .i32⟩
  | .hbm, ⟨17, _⟩ => ⟨S1026x4x1024, .f32⟩
  | .hbm, ⟨18, _⟩ => ⟨S1026x4x1024, .bf16⟩
  | .hbm, ⟨19, _⟩ => ⟨S1024x4x1024, .bf16⟩
  | .hbm, ⟨20, _⟩ => ⟨S4096x1024, .bf16⟩
  | .hbm, ⟨21, _⟩ => ⟨S1024x4x1024, .bf16⟩
  | .hbm, ⟨22, _⟩ => ⟨S4096x1024, .bf16⟩
  | .hbm, ⟨23, _⟩ => ⟨S1024x4x1024, .bf16⟩
  | .hbm, ⟨24, _⟩ => ⟨S4096x1024, .bf16⟩
  | .hbm, ⟨25, _⟩ => ⟨S3x1024x512, .f32⟩
  | .hbm, ⟨26, _⟩ => ⟨S3x1024x512, .bf16⟩
  | .hbm, ⟨27, _⟩ => ⟨S1x512, .f32⟩
  | .hbm, ⟨28, _⟩ => ⟨S4096x512, .f32⟩
  | .hbm, ⟨29, _⟩ => ⟨S32000x512, .bf16⟩
  | .hbm, ⟨30, _⟩ => ⟨S1x32000, .f32⟩
  | .hbm, ⟨31, _⟩ => ⟨S4096x512, .bf16⟩
  | .hbm, ⟨32, _⟩ => ⟨S4096x32000, .f32⟩
  | .hbm, ⟨33, _⟩ => ⟨S1024x4x32000, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S3x1024x512, .bf16⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | .local _ .vmem, ⟨10, _⟩ => ⟨S1024x512, .bf16⟩
  | .local _ .vmem, ⟨11, _⟩ => ⟨S1024x512, .bf16⟩
  | .local _ .vmem, ⟨12, _⟩ => ⟨S3200x512, .bf16⟩
  | .local _ .vmem, ⟨13, _⟩ => ⟨S3200x512, .bf16⟩
  | .local _ .vmem, ⟨14, _⟩ => ⟨S1x3200, .f32⟩
  | .local _ .vmem, ⟨15, _⟩ => ⟨S1x3200, .f32⟩
  | .local _ .vmem, ⟨16, _⟩ => ⟨S1024x3200, .f32⟩
  | .local _ .vmem, ⟨17, _⟩ => ⟨S1024x3200, .f32⟩
  | _, _ => ⟨S1024x4, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![10, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S3200x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x3200 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x3200 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  bcast_S_S2x4 : S_.BroadcastsInDim S2x4 (![] : Fin 0 → Fin S2x4.rank)
  concatenates_S2x4_S1024x4_S1026x4_d0 : Shape.Concatenates [S2x4, S1024x4] S1026x4 0
  bcast_S_S1026x4 : S_.BroadcastsInDim S1026x4 (![] : Fin 0 → Fin S1026x4.rank)
  bcast_S1026x4_S1026x4x1_0_1 : S1026x4.BroadcastsInDim S1026x4x1 (![0, 1] : Fin 2 → Fin S1026x4x1.rank)
  bitsLt_bf16_f32 : FTy.bits .bf16 < FTy.bits .f32
  slices_S1026x4x1024_S1024x4x1024_0_0_0 : S1026x4x1024.Slices ![0, 0, 0] S1024x4x1024
  shapeCasts_S1024x4x1024_S4096x1024 : S1024x4x1024.ShapeCasts S4096x1024
  slices_S1026x4x1024_S1024x4x1024_1_0_0 : S1026x4x1024.Slices ![1, 0, 0] S1024x4x1024
  slices_S1026x4x1024_S1024x4x1024_2_0_0 : S1026x4x1024.Slices ![2, 0, 0] S1024x4x1024
  transposes_S512x1024x3_S3x1024x512_2_1_0 : S512x1024x3.Transposes [2, 1, 0] S3x1024x512
  shapeCasts_S512_S1x512 : S512.ShapeCasts S1x512
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S3x1024x512_S1x1024x512_0_0_0 : ∀ a, (![0, 0, 0] : Fin 3 → Nat) a + S1x1024x512.size a ≤ S3x1024x512.size a
  h_S1x1024x512 : 0 < S1x1024x512.numel
  shapeCasts_S1x1024x512_S1024x512 : S1x1024x512.ShapeCasts S1024x512
  inb_S3x1024x512_S1x1024x512_1_0_0 : ∀ a, (![1, 0, 0] : Fin 3 → Nat) a + S1x1024x512.size a ≤ S3x1024x512.size a
  inb_S3x1024x512_S1x1024x512_2_0_0 : ∀ a, (![2, 0, 0] : Fin 3 → Nat) a + S1x1024x512.size a ≤ S3x1024x512.size a
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  shapeCasts_S32000_S1x32000 : S32000.ShapeCasts S1x32000
  shapeCasts_S1024x512_S1024x512 : S1024x512.ShapeCasts S1024x512
  inb_S3200x512_S3200x512_0_0 : ∀ a, (![0, 0] : Fin 2 → Nat) a + S3200x512.size a ≤ S3200x512.size a
  h_S3200x512 : 0 < S3200x512.numel
  shapeCasts_S3200x512_S3200x512 : S3200x512.ShapeCasts S3200x512
  inb_S1x3200_S1x3200_0_0 : ∀ a, (![0, 0] : Fin 2 → Nat) a + S1x3200.size a ≤ S1x3200.size a
  h_S1x3200 : 0 < S1x3200.numel
  shapeCasts_S1x3200_S1x3200 : S1x3200.ShapeCasts S1x3200
  broadcasts_S1x3200_S1024x3200 : S1x3200.Broadcasts S1024x3200
  inb_S1024x3200_S1024x3200_0_0 : ∀ a, (![0, 0] : Fin 2 → Nat) a + S1024x3200.size a ≤ S1024x3200.size a
  h_S1024x3200 : 0 < S1024x3200.numel
  shapeCasts_S4096x32000_S1024x4x32000 : S4096x32000.ShapeCasts S1024x4x32000
  gather_S32000x1024_S1026x4x1_S1026x4x1024_2_0_n_n_0_2_11024_wf : GatherDims.WF S32000x1024 S1026x4x1 S1026x4x1024 [2] [0] [] [0] [] 2 ![1, 1024]
  dot_S1024x1024_S1024x512_S1024x512_1_0_0_1_n_n_wf : DotDims.WF S1024x1024 S1024x512 S1024x512 [1] [0] [0] [1] [] []
  dot_S1024x512_S3200x512_S1024x3200_1_1_0_0_n_n_wf : DotDims.WF S1024x512 S3200x512 S1024x3200 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .bf16 = 32 ∨ (Rect.block (s := S4096x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x1024.size a
  hwx0_1 : ∀ i : grid0.Coords, EltTy.bits .bf16 = 32 ∨ (Rect.block (s := S4096x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x1024.size a
  hwx0_2 : ∀ i : grid0.Coords, EltTy.bits .bf16 = 32 ∨ (Rect.block (s := S4096x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x1024x512.size a ≤ S3x1024x512.size a
  hwx0_3 : ∀ i : grid0.Coords, EltTy.bits .bf16 = 32 ∨ (Rect.block (s := S3x1024x512) S3x1024x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S4096x512.size a
  hwx0_5 : ∀ i : grid0.Coords, EltTy.bits .f32 = 32 ∨ (Rect.block (s := S4096x512) S1024x512.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S4096x512.size a
  hwx1_0 : ∀ i : grid1.Coords, EltTy.bits .bf16 = 32 ∨ (Rect.block (s := S4096x512) S1024x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3200x512.size a ≤ S32000x512.size a
  hwx1_1 : ∀ i : grid1.Coords, EltTy.bits .bf16 = 32 ∨ (Rect.block (s := S32000x512) S3200x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x3200.size a ≤ S1x32000.size a
  hwx1_2 : ∀ i : grid1.Coords, EltTy.bits .f32 = 32 ∨ (Rect.block (s := S1x32000) S1x3200.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x3200.size a ≤ S4096x32000.size a
  hwx1_3 : ∀ i : grid1.Coords, EltTy.bits .f32 = 32 ∨ (Rect.block (s := S4096x32000) S1024x3200.size (cc1_transform_3 i) (hinb1_3 i)).WholeWords (EltTy.packing .f32)

variable [Facts₀]

def gather_S32000x1024_S1026x4x1_S1026x4x1024_2_0_n_n_0_2_11024 : GatherDims S32000x1024 S1026x4x1 S1026x4x1024 where
  offsetDims := [2]
  collapsedSliceDims := [0]
  operandBatchingDims := []
  startIndicesBatchingDims := []
  startIndexMap := [0]
  indexVectorDim := 2
  sliceSizes := ![1, 1024]
  wf := gather_S32000x1024_S1026x4x1_S1026x4x1024_2_0_n_n_0_2_11024_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S3200x512_S1024x3200_1_1_0_0_n_n : DotDims S1024x512 S3200x512 S1024x3200 where
  lhsContracting := [1]
  rhsContracting := [1]
  lhsNonContracting := [0]
  rhsNonContracting := [0]
  lhsBatch := []
  rhsBatch := []
  wf := dot_S1024x512_S3200x512_S1024x3200_1_1_0_0_n_n_wf

abbrev win0_0 : Pipeline.Window sig grid0 :=
  Pipeline.Window.ofSpec (Memref.whole main_v11) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S3x1024x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1024x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v22) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S3200x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S1x3200.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1024x3200.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1024x4 : Shape := ⟨2, ![1024, 4]⟩
abbrev S32000x1024 : Shape := ⟨2, ![32000, 1024]⟩
abbrev S512x1024x3 : Shape := ⟨3, ![512, 1024, 3]⟩
abbrev S512 : Shape := ⟨1, ![512]⟩
abbrev S32000x512 : Shape := ⟨2, ![32000, 512]⟩
abbrev S32000 : Shape := ⟨1, ![32000]⟩
abbrev S_ : Shape := ⟨0, ![]⟩
abbrev S2x4 : Shape := ⟨2, ![2, 4]⟩
abbrev S1026x4 : Shape := ⟨2, ![1026, 4]⟩
abbrev S1026x4x1 : Shape := ⟨3, ![1026, 4, 1]⟩
abbrev S1026x4x1024 : Shape := ⟨3, ![1026, 4, 1024]⟩
abbrev S1024x4x1024 : Shape := ⟨3, ![1024, 4, 1024]⟩
abbrev S512x1024x1 : Shape := ⟨3, ![512, 1024, 1]⟩
abbrev S512x1024 : Shape := ⟨2, ![512, 1024]⟩
abbrev S1024x4x512 : Shape := ⟨3, ![1024, 4, 512]⟩
abbrev S1x1x512 : Shape := ⟨3, ![1, 1, 512]⟩
abbrev S1024x4x32000 : Shape := ⟨3, ![1024, 4, 32000]⟩
abbrev S1x1x32000 : Shape := ⟨3, ![1, 1, 32000]⟩

abbrev nBuf : Space → Nat
  | .hbm => 42
  | .vmem => 0
  | .smem => 0
  | _ => 0

abbrev bufTy : (tb : Table) → Fin (tcTables nBuf tb) → BufTy
  | .hbm, ⟨0, _⟩ => ⟨S1024x4, .i32⟩
  | .hbm, ⟨1, _⟩ => ⟨S32000x1024, .f32⟩
  | .hbm, ⟨2, _⟩ => ⟨S512x1024x3, .f32⟩
  | .hbm, ⟨3, _⟩ => ⟨S512, .f32⟩
  | .hbm, ⟨4, _⟩ => ⟨S32000x512, .f32⟩
  | .hbm, ⟨5, _⟩ => ⟨S32000, .f32⟩
  | .hbm, ⟨6, _⟩ => ⟨S_, .i32⟩
  | .hbm, ⟨7, _⟩ => ⟨S2x4, .i32⟩
  | .hbm, ⟨8, _⟩ => ⟨S1026x4, .i32⟩
  | .hbm, ⟨9, _⟩ => ⟨S_, .i32⟩
  | .hbm, ⟨10, _⟩ => ⟨S1026x4, .i32⟩
  | .hbm, ⟨11, _⟩ => ⟨S1026x4, .i1⟩
  | .hbm, ⟨12, _⟩ => ⟨S_, .i32⟩
  | .hbm, ⟨13, _⟩ => ⟨S1026x4, .i32⟩
  | .hbm, ⟨14, _⟩ => ⟨S1026x4, .i32⟩
  | .hbm, ⟨15, _⟩ => ⟨S1026x4, .i32⟩
  | .hbm, ⟨16, _⟩ => ⟨S1026x4x1, .i32⟩
  | .hbm, ⟨17, _⟩ => ⟨S1026x4x1024, .f32⟩
  | .hbm, ⟨18, _⟩ => ⟨S1024x4x1024, .f32⟩
  | .hbm, ⟨19, _⟩ => ⟨S512x1024x1, .f32⟩
  | .hbm, ⟨20, _⟩ => ⟨S512x1024, .f32⟩
  | .hbm, ⟨21, _⟩ => ⟨S1024x4x512, .f32⟩
  | .hbm, ⟨22, _⟩ => ⟨S1x1x512, .f32⟩
  | .hbm, ⟨23, _⟩ => ⟨S1024x4x512, .f32⟩
  | .hbm, ⟨24, _⟩ => ⟨S1024x4x512, .f32⟩
  | .hbm, ⟨25, _⟩ => ⟨S1024x4x1024, .f32⟩
  | .hbm, ⟨26, _⟩ => ⟨S512x1024x1, .f32⟩
  | .hbm, ⟨27, _⟩ => ⟨S512x1024, .f32⟩
  | .hbm, ⟨28, _⟩ => ⟨S1024x4x512, .f32⟩
  | .hbm, ⟨29, _⟩ => ⟨S1024x4x512, .f32⟩
  | .hbm, ⟨30, _⟩ => ⟨S1024x4x1024, .f32⟩
  | .hbm, ⟨31, _⟩ => ⟨S512x1024x1, .f32⟩
  | .hbm, ⟨32, _⟩ => ⟨S512x1024, .f32⟩
  | .hbm, ⟨33, _⟩ => ⟨S1024x4x512, .f32⟩
  | .hbm, ⟨34, _⟩ => ⟨S1024x4x512, .f32⟩
  | .hbm, ⟨35, _⟩ => ⟨S_, .f32⟩
  | .hbm, ⟨36, _⟩ => ⟨S1024x4x512, .f32⟩
  | .hbm, ⟨37, _⟩ => ⟨S1024x4x512, .f32⟩
  | .hbm, ⟨38, _⟩ => ⟨S1024x4x32000, .f32⟩
  | .hbm, ⟨39, _⟩ => ⟨S1x1x32000, .f32⟩
  | .hbm, ⟨40, _⟩ => ⟨S1024x4x32000, .f32⟩
  | .hbm, ⟨41, _⟩ => ⟨S1024x4x32000, .f32⟩
  | _, _ => ⟨S1024x4, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_call0_cst : Ref sig .tc := ⟨.hbm, 35, rfl⟩
abbrev main_call0_v0 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]

class Facts₀ : Prop where
  bcast_S_S2x4 : S_.BroadcastsInDim S2x4 (![] : Fin 0 → Fin S2x4.rank)
  concatenates_S2x4_S1024x4_S1026x4_d0 : Shape.Concatenates [S2x4, S1024x4] S1026x4 0
  bcast_S_S1026x4 : S_.BroadcastsInDim S1026x4 (![] : Fin 0 → Fin S1026x4.rank)
  bcast_S1026x4_S1026x4x1_0_1 : S1026x4.BroadcastsInDim S1026x4x1 (![0, 1] : Fin 2 → Fin S1026x4x1.rank)
  slices_S1026x4x1024_S1024x4x1024_0_0_0 : S1026x4x1024.Slices ![0, 0, 0] S1024x4x1024
  slices_S512x1024x3_S512x1024x1_0_0_0 : S512x1024x3.Slices ![0, 0, 0] S512x1024x1
  shapeCasts_S512x1024x1_S512x1024 : S512x1024x1.ShapeCasts S512x1024
  bcast_S512_S1x1x512_2 : S512.BroadcastsInDim S1x1x512 (![2] : Fin 1 → Fin S1x1x512.rank)
  bcast_S1x1x512_S1024x4x512_0_1_2 : S1x1x512.BroadcastsInDim S1024x4x512 (![0, 1, 2] : Fin 3 → Fin S1024x4x512.rank)
  slices_S1026x4x1024_S1024x4x1024_1_0_0 : S1026x4x1024.Slices ![1, 0, 0] S1024x4x1024
  slices_S512x1024x3_S512x1024x1_0_0_1 : S512x1024x3.Slices ![0, 0, 1] S512x1024x1
  slices_S1026x4x1024_S1024x4x1024_2_0_0 : S1026x4x1024.Slices ![2, 0, 0] S1024x4x1024
  slices_S512x1024x3_S512x1024x1_0_0_2 : S512x1024x3.Slices ![0, 0, 2] S512x1024x1
  bcast_S_S1024x4x512 : S_.BroadcastsInDim S1024x4x512 (![] : Fin 0 → Fin S1024x4x512.rank)
  bcast_S32000_S1x1x32000_2 : S32000.BroadcastsInDim S1x1x32000 (![2] : Fin 1 → Fin S1x1x32000.rank)
  bcast_S1x1x32000_S1024x4x32000_0_1_2 : S1x1x32000.BroadcastsInDim S1024x4x32000 (![0, 1, 2] : Fin 3 → Fin S1024x4x32000.rank)
  gather_S32000x1024_S1026x4x1_S1026x4x1024_2_0_n_n_0_2_11024_wf : GatherDims.WF S32000x1024 S1026x4x1 S1026x4x1024 [2] [0] [] [0] [] 2 ![1, 1024]
  dot_S1024x4x1024_S512x1024_S1024x4x512_2_1_01_0_n_n_wf : DotDims.WF S1024x4x1024 S512x1024 S1024x4x512 [2] [1] [0, 1] [0] [] []
  dot_S1024x4x512_S32000x512_S1024x4x32000_2_1_01_0_n_n_wf : DotDims.WF S1024x4x512 S32000x512 S1024x4x32000 [2] [1] [0, 1] [0] [] []

variable [Facts₀]

def gather_S32000x1024_S1026x4x1_S1026x4x1024_2_0_n_n_0_2_11024 : GatherDims S32000x1024 S1026x4x1 S1026x4x1024 where
  offsetDims := [2]
  collapsedSliceDims := [0]
  operandBatchingDims := []
  startIndicesBatchingDims := []
  startIndexMap := [0]
  indexVectorDim := 2
  sliceSizes := ![1, 1024]
  wf := gather_S32000x1024_S1026x4x1_S1026x4x1024_2_0_n_n_0_2_11024_wf
def dot_S1024x4x1024_S512x1024_S1024x4x512_2_1_01_0_n_n : DotDims S1024x4x1024 S512x1024 S1024x4x512 where
  lhsContracting := [2]
  rhsContracting := [1]
  lhsNonContracting := [0, 1]
  rhsNonContracting := [0]
  lhsBatch := []
  rhsBatch := []
  wf := dot_S1024x4x1024_S512x1024_S1024x4x512_2_1_01_0_n_n_wf
def dot_S1024x4x512_S32000x512_S1024x4x32000_2_1_01_0_n_n : DotDims S1024x4x512 S32000x512 S1024x4x32000 where
  lhsContracting := [2]
  rhsContracting := [1]
  lhsNonContracting := [0, 1]
  rhsNonContracting := [0]
  lhsBatch := []
  rhsBatch := []
  wf := dot_S1024x4x512_S32000x512_S1024x4x32000_2_1_01_0_n_n_wf

class Facts : Prop extends Facts₀ where

variable [Facts]
-- ==== Proof.Spec.lean ====
/-
  The network's two layers, entry by entry, over the extended reals.

  A token's hidden feature is a width-3 causal convolution over the embedded sequence followed by a rectifier: with
  the three shifted copies of the embedded sequence laid out as [4096, 1024] arrays X0, X1, X2 (row 4·s + b is
  position s of batch entry b) and the taps as one [3, 1024, 512] array,
      hidden (p, h) = max (((tap 0 + tap 1) + tap 2) + bias h) 0,   tap j = ∑ e, X_j (p, e) · W (j, e, h).
  The logits are a linear layer over the hidden features against a [32000, 512] weight contracted on its last axis:
      logits (p, v) = (∑ h, A (p, h) · W (v, h)) + bias v.
  Both are stated for arrays given as functions of their index; the biases are one-row arrays.
-/
import Idealize.ShloMosaic.PureOps.Ideal
import Idealize.ShloMosaic.Lib.ValueIdx

noncomputable section

namespace Cert.ConvNet

open Idealize.ShloMosaic Idealize.ShloMosaic.ValueIdx
open scoped BigOperators

/-- One tap of the convolution at row `p`, feature `h`: the inner product of row `p` of the shifted sequence
    with column `h` of tap `j`. -/
def tap (X : (⟨2, ![4096, 1024]⟩ : Shape).Idx → EReal) (W : (⟨3, ![3, 1024, 512]⟩ : Shape).Idx → EReal)
    (j : Fin 3) (p : Fin 4096) (h : Fin 512) : EReal :=
  ∑ e : Fin 1024, X (ix2 p e) * W (ix3 j e h)

/-- The hidden feature at row `p`, feature `h`: the three taps added left to right, then the bias, then the
    maximum with zero. -/
def hidden (X0 X1 X2 : (⟨2, ![4096, 1024]⟩ : Shape).Idx → EReal) (W : (⟨3, ![3, 1024, 512]⟩ : Shape).Idx → EReal)
    (B : (⟨2, ![1, 512]⟩ : Shape).Idx → EReal) (p : Fin 4096) (h : Fin 512) : EReal :=
  max (((tap X0 W 0 p h + tap X1 W 1 p h) + tap X2 W 2 p h) + B (ix2 0 h)) 0

/-- The hidden features as one [4096, 512] array. -/
def hiddenArr (X0 X1 X2 : (⟨2, ![4096, 1024]⟩ : Shape).Idx → EReal) (W : (⟨3, ![3, 1024, 512]⟩ : Shape).Idx → EReal)
    (B : (⟨2, ![1, 512]⟩ : Shape).Idx → EReal) : (⟨2, ![4096, 512]⟩ : Shape).Idx → EReal :=
  fun j => hidden X0 X1 X2 W B (j 0) (j 1)

/-- The logit at row `p`, vocabulary entry `v`: row `p` of the features against row `v` of the weight, plus the
    bias. -/
def logit (A : (⟨2, ![4096, 512]⟩ : Shape).Idx → EReal) (W : (⟨2, ![32000, 512]⟩ : Shape).Idx → EReal)
    (B : (⟨2, ![1, 32000]⟩ : Shape).Idx → EReal) (p : Fin 4096) (v : Fin 32000) : EReal :=
  (∑ h : Fin 512, A (ix2 p h) * W (ix2 v h)) + B (ix2 0 v)

/-- The logits as one [4096, 32000] array. -/
def logitArr (A : (⟨2, ![4096, 512]⟩ : Shape).Idx → EReal) (W : (⟨2, ![32000, 512]⟩ : Shape).Idx → EReal)
    (B : (⟨2, ![1, 32000]⟩ : Shape).Idx → EReal) : (⟨2, ![4096, 32000]⟩ : Shape).Idx → EReal :=
  fun j => logit A W B (j 0) (j 1)

theorem hiddenArr_apply (X0 X1 X2 : (⟨2, ![4096, 1024]⟩ : Shape).Idx → EReal) (W : (⟨3, ![3, 1024, 512]⟩ : Shape).Idx → EReal)
    (B : (⟨2, ![1, 512]⟩ : Shape).Idx → EReal) (p : Fin 4096) (h : Fin 512) :
    hiddenArr X0 X1 X2 W B (ix2 p h) = hidden X0 X1 X2 W B p h := rfl

theorem logitArr_apply (A : (⟨2, ![4096, 512]⟩ : Shape).Idx → EReal) (W : (⟨2, ![32000, 512]⟩ : Shape).Idx → EReal)
    (B : (⟨2, ![1, 32000]⟩ : Shape).Idx → EReal) (p : Fin 4096) (v : Fin 32000) :
    logitArr A W B (ix2 p v) = logit A W B p v := rfl

/-! ## The whole network over the embedded, padded sequence

  With `E` the embedded sequence after two rows of padding, [1026, 4, 1024], position `s` of the output sees rows
  `s`, `s + 1`, `s + 2` of `E`; the taps are indexed [feature, embedding, tap], the vocabulary weight
  [vocabulary, feature]. -/

/-- Row `s + j` of the padded sequence, for a tap `j < 3`. -/
def shift (s : Fin 1024) (j : Fin 3) : Fin 1026 := ⟨s.val + j.val, by have := s.isLt; have := j.isLt; omega⟩

/-- The hidden feature at position `s`, batch entry `b`, feature `h`. -/
def netHidden (E : (⟨3, ![1026, 4, 1024]⟩ : Shape).Idx → EReal) (cw : (⟨3, ![512, 1024, 3]⟩ : Shape).Idx → EReal)
    (cb : (⟨1, ![512]⟩ : Shape).Idx → EReal) (s : Fin 1024) (b : Fin 4) (h : Fin 512) : EReal :=
  max ((((∑ e : Fin 1024, E (ix3 (shift s 0) b e) * cw (ix3 h e 0))
        + ∑ e : Fin 1024, E (ix3 (shift s 1) b e) * cw (ix3 h e 1))
        + ∑ e : Fin 1024, E (ix3 (shift s 2) b e) * cw (ix3 h e 2)) + cb (ix1 h)) 0

/-- The logit at position `s`, batch entry `b`, vocabulary entry `v`. -/
def netOut (E : (⟨3, ![1026, 4, 1024]⟩ : Shape).Idx → EReal) (cw : (⟨3, ![512, 1024, 3]⟩ : Shape).Idx → EReal)
    (cb : (⟨1, ![512]⟩ : Shape).Idx → EReal) (fw : (⟨2, ![32000, 512]⟩ : Shape).Idx → EReal)
    (fb : (⟨1, ![32000]⟩ : Shape).Idx → EReal) (s : Fin 1024) (b : Fin 4) (v : Fin 32000) : EReal :=
  (∑ h : Fin 512, netHidden E cw cb s b h * fw (ix2 v h)) + fb (ix1 v)

/-- The logits as one [1024, 4, 32000] array. -/
def netArr (E : (⟨3, ![1026, 4, 1024]⟩ : Shape).Idx → EReal) (cw : (⟨3, ![512, 1024, 3]⟩ : Shape).Idx → EReal)
    (cb : (⟨1, ![512]⟩ : Shape).Idx → EReal) (fw : (⟨2, ![32000, 512]⟩ : Shape).Idx → EReal)
    (fb : (⟨1, ![32000]⟩ : Shape).Idx → EReal) : (⟨3, ![1024, 4, 32000]⟩ : Shape).Idx → EReal :=
  fun i => netOut E cw cb fw fb (i 0) (i 1) (i 2)

end Cert.ConvNet

end
-- ==== Proof.LibDotSum.lean ====
/-
  A sum over a one-axis contraction index, written as a sum over the axis's coordinates.

  A matrix product read at an output index is a sum over the contraction index of the dot's dimension record, a
  one-coordinate index when one axis is contracted.  Re-indexing through the bijection with `Fin n` turns it into
  the textbook sum `∑ i : Fin n, L i · R i`, once each operand is known at the operand indices the record builds.
-/
import Idealize.ShloMosaic.PureOps.Ideal
import Idealize.ShloMosaic.PureOps.Ideal.Laws
import Idealize.ShloMosaic.Lib.ValueIdx

noncomputable section

namespace Cert.LibDotSum

open Idealize.ShloMosaic Idealize.ShloMosaic.ValueIdx

/-- The sum over a one-axis contraction index of the products of two operands is the sum over `Fin n` of the
    products of their readings `L`, `R` along that axis. -/
theorem sum_contr_eq {sl sr so : Shape} (D : DotDims sl sr so) (n : Nat) (hr : D.contr.rank = 1)
    (hs : D.contr.size ⟨0, by omega⟩ = n) (f : sl.Idx → EReal) (g : sr.Idx → EReal) (j : so.Idx)
    (L R : Fin n → EReal)
    (hl : ∀ i : Fin n, f (D.lhsIdx j ((contrEquiv1 D n hr hs).symm i)) = L i)
    (hg : ∀ i : Fin n, g (D.rhsIdx j ((contrEquiv1 D n hr hs).symm i)) = R i) :
    ∑ k : D.contr.Idx, f (D.lhsIdx j k) * g (D.rhsIdx j k) = ∑ i : Fin n, L i * R i := by
  rw [← Equiv.sum_comp (contrEquiv1 D n hr hs).symm]
  exact Finset.sum_congr rfl fun i _ => by rw [hl i, hg i]

end Cert.LibDotSum

end
-- ==== Proof.LibPlainDot.lean ====
/-
  A plain matrix product read at an entry.

  A product of an [M, K] array with a [K, N] array that contracts the left operand's second axis with the right
  operand's first axis and has no batch axis: the sum over its one-axis contraction index, read at the output entry
  (p, q), is the textbook sum over i of the left operand at (p, i) times the right operand at (i, q).
-/
import Idealize.ShloMosaic.PureOps.Ideal
import Idealize.ShloMosaic.PureOps.Ideal.Laws
import Idealize.ShloMosaic.Lib.ValueIdx
import proofs.«103292_j78769700209271_2_alg».proof.Proof.LibDotSum

noncomputable section

namespace Cert.LibPlainDot

open Idealize.ShloMosaic Idealize.ShloMosaic.ValueIdx

variable {M K N : ℕ} (D : DotDims ⟨2, ![M, K]⟩ ⟨2, ![K, N]⟩ ⟨2, ![M, N]⟩)

/-- One axis is contracted. -/
theorem rank_contr_one (hlc : D.lhsContracting = [1]) : D.contr.rank = 1 := by
  rw [D.rank_contr, hlc]; rfl

/-- Its extent is the left operand's second extent. -/
theorem size_contr_K (hlc : D.lhsContracting = [1]) :
    D.contr.size ⟨0, by rw [rank_contr_one D hlc]; exact Nat.one_pos⟩ = K := by
  have h := D.size_contr 0 (by rw [hlc]; exact Nat.one_pos)
  rw [h]
  simp only [hlc, List.getElem_cons_zero]
  rfl

/-- The left operand's index at output entry (p, q) and contraction position i is (p, i). -/
theorem lhsIdx_eq (hlc : D.lhsContracting = [1]) (hlb : D.lhsBatch = []) (hln : D.lhsNonContracting = [0])
    (p : Fin M) (q : Fin N) (i : Fin K) :
    D.lhsIdx (ix2 p q) ((contrEquiv1 D K (rank_contr_one D hlc) (size_contr_K D hlc)).symm i) = ix2 p i := by
  funext a
  apply Fin.ext
  match a with
  | ⟨0, _⟩ =>
    unfold DotDims.lhsIdx
    have hb : (⟨0, by decide⟩ : Fin 2) ∉ D.lhsBatch := by rw [hlb]; exact List.not_mem_nil
    have hn : (⟨0, by decide⟩ : Fin 2) ∈ D.lhsNonContracting := by rw [hln]; exact List.mem_singleton.mpr rfl
    rw [dif_neg hb, dif_pos hn]
    simp only [Fin.val_cast]
    have key : ∀ (u : ℕ) (hu : u < 2), u = 0 → ((ix2 p q : (⟨2, ![M, N]⟩ : Shape).Idx) ⟨u, hu⟩).val = p.val :=
      fun u hu h => by subst h; rfl
    exact key _ _ (by simp [hlb, hln])
  | ⟨1, _⟩ =>
    have h := D.lhsIdx_val_of_single (cl := (1 : Fin 2)) hlc (ix2 p q)
      ((contrEquiv1 D K (rank_contr_one D hlc) (size_contr_K D hlc)).symm i)
    refine h.trans ?_
    exact contrEquiv1_symm_val D K (rank_contr_one D hlc) (size_contr_K D hlc) i

/-- The right operand's index at output entry (p, q) and contraction position i is (i, q). -/
theorem rhsIdx_eq (hlc : D.lhsContracting = [1]) (hrc : D.rhsContracting = [0]) (hlb : D.lhsBatch = [])
    (hrb : D.rhsBatch = []) (hln : D.lhsNonContracting = [0]) (hrn : D.rhsNonContracting = [1])
    (p : Fin M) (q : Fin N) (i : Fin K) :
    D.rhsIdx (ix2 p q) ((contrEquiv1 D K (rank_contr_one D hlc) (size_contr_K D hlc)).symm i) = ix2 i q := by
  funext a
  apply Fin.ext
  match a with
  | ⟨0, _⟩ =>
    have h := D.rhsIdx_val_of_single (cr := (0 : Fin 2)) hrc (ix2 p q)
      ((contrEquiv1 D K (rank_contr_one D hlc) (size_contr_K D hlc)).symm i)
    refine h.trans ?_
    exact contrEquiv1_symm_val D K (rank_contr_one D hlc) (size_contr_K D hlc) i
  | ⟨1, _⟩ =>
    unfold DotDims.rhsIdx
    have hb : (⟨1, by decide⟩ : Fin 2) ∉ D.rhsBatch := by rw [hrb]; exact List.not_mem_nil
    have hn : (⟨1, by decide⟩ : Fin 2) ∈ D.rhsNonContracting := by rw [hrn]; exact List.mem_singleton.mpr rfl
    rw [dif_neg hb, dif_pos hn]
    simp only [Fin.val_cast]
    have key : ∀ (u : ℕ) (hu : u < 2), u = 1 → ((ix2 p q : (⟨2, ![M, N]⟩ : Shape).Idx) ⟨u, hu⟩).val = q.val :=
      fun u hu h => by subst h; rfl
    exact key _ _ (by simp [hlb, hln, hrn])

/-- The product's sum at entry (p, q) is the sum over i of left (p, i) times right (i, q). -/
theorem sum_plain (hlc : D.lhsContracting = [1]) (hrc : D.rhsContracting = [0]) (hlb : D.lhsBatch = [])
    (hrb : D.rhsBatch = []) (hln : D.lhsNonContracting = [0]) (hrn : D.rhsNonContracting = [1])
    (f : (⟨2, ![M, K]⟩ : Shape).Idx → EReal) (g : (⟨2, ![K, N]⟩ : Shape).Idx → EReal) (p : Fin M) (q : Fin N) :
    ∑ k : D.contr.Idx, f (D.lhsIdx (ix2 p q) k) * g (D.rhsIdx (ix2 p q) k) = ∑ i : Fin K, f (ix2 p i) * g (ix2 i q) :=
  Cert.LibDotSum.sum_contr_eq D K (rank_contr_one D hlc) (size_contr_K D hlc) f g (ix2 p q)
    (fun i => f (ix2 p i)) (fun i => g (ix2 i q))
    (fun i => congrArg f (lhsIdx_eq D hlc hlb hln p q i))
    (fun i => congrArg g (rhsIdx_eq D hlc hrc hlb hrb hln hrn p q i))

end Cert.LibPlainDot

end
-- ==== Proof.LibMatmulAnyFormat.lean ====
/-
  A plain matrix product accumulated into the zero array, read at an entry, for operands of any float formats.

  Over the extended reals a float's format carries no information, so the product of an [M, K] array with a
  [K, N] array, whatever the two formats, started from the array of zeros, holds at (p, q) the textbook sum over
  i of left (p, i) times right (i, q).
-/
import Idealize.ShloMosaic.PureOps.Ideal
import Idealize.ShloMosaic.PureOps.Ideal.Laws
import Idealize.ShloMosaic.Lib.ValueIdx
import proofs.«103292_j78769700209271_2_alg».proof.Proof.LibPlainDot

noncomputable section

open scoped BigOperators

namespace Cert.LibMatmulAnyFormat

open Idealize.ShloMosaic Idealize.ShloMosaic.ValueIdx

/-- A plain matrix product into the zero array at (p, q): the sum over i of left (p, i) times right (i, q), the
    operands' formats arbitrary. -/
theorem matmul_zero_entry {M K N : ℕ} {φ₁ φ₂ : FTy} (D : DotDims ⟨2, ![M, K]⟩ ⟨2, ![K, N]⟩ ⟨2, ![M, N]⟩)
    (hlc : D.lhsContracting = [1]) (hrc : D.rhsContracting = [0]) (hlb : D.lhsBatch = []) (hrb : D.rhsBatch = [])
    (hln : D.lhsNonContracting = [0]) (hrn : D.rhsNonContracting = [1]) (prec : Option ContractPrecision)
    (L : FVec Ideal ⟨2, ![M, K]⟩ φ₁) (R : FVec Ideal ⟨2, ![K, N]⟩ φ₂) (p : Fin M) (q : Fin N) :
    matmul D prec L R (constant ⟨2, ![M, N]⟩ .f32 0x00000000#32) (ix2 p q) = ∑ i : Fin K, L (ix2 p i) * R (ix2 i q) :=
  (Ideal.matmul_constant_zero_apply D prec L R (ix2 p q)).trans
    (Cert.LibPlainDot.sum_plain D hlc hrc hlb hrb hln hrn L R p q)

end Cert.LibMatmulAnyFormat

end
-- ==== Proof.ConvRegion.lean ====
/-
  The first layer of the network, read off the region that computes it.

  The region walks the 4096 rows of the three shifted copies of the embedded sequence in four blocks of 1024
  rows. At each block it multiplies the block of each copy by that copy's [1024, 512] tap, adds the three
  products left to right, adds the bias row to every row, and takes the maximum with zero; the resulting
  [1024, 512] block is written to the same rows of the output. Entry (p, h) of the output therefore depends on row
  p of each of the three copies, on column h of each tap and on entry h of the bias, and on nothing else; the
  four blocks together are the whole [4096, 512] array of hidden features.
-/
import proofs.«103292_j78769700209271_2_alg».proof.Proof.Gen.KernelIdeal.Frame
import proofs.«103292_j78769700209271_2_alg».proof.Proof.Spec
import proofs.«103292_j78769700209271_2_alg».proof.Proof.LibMatmulAnyFormat
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.ConvRegion

open Cert.KernelIdeal Cert.KernelIdeal.Gen Idealize.ShloMosaic Idealize.ShloMosaic.ValueIdx Idealize.SL.Sem
open Idealize.ShloMosaic.TcCoe
open Idealize.ShloMosaic.Pipeline (Dat Cfg Window)
open scoped BigOperators

/-! ## One entry of the block the body stores -/

/-- A [1, 1024, 512] tap viewed as a [1024, 512] matrix has at (e, q) the tap's entry (0, e, q). -/
theorem tapMatrix_apply (w : FVec Ideal S1x1024x512 .bf16) (e : Fin 1024) (q : Fin 512) :
    shapeCast S1024x512 w shapeCasts_S1x1024x512_S1024x512 (ix2 e q) = w (ix3 (0 : Fin 1) e q) :=
  shapeCast_1ab_ab_apply w shapeCasts_S1x1024x512_S1024x512 e q

/-- One of the three products at (p, q): row p of the block of the shifted sequence against column q of the tap. -/
theorem product_apply (x : FVec Ideal S1024x1024 .bf16) (w : FVec Ideal S1x1024x512 .bf16) (p : Fin 1024) (q : Fin 512) :
    matmul dot_S1024x1024_S1024x512_S1024x512_1_0_0_1_n_n none
        (shapeCast S1024x1024 x shapeCasts_S1024x1024_S1024x1024)
        (shapeCast S1024x512 w shapeCasts_S1x1024x512_S1024x512)
        (constant S1024x512 .f32 0x00000000#32) (ix2 p q)
      = ∑ e : Fin 1024, x (ix2 p e) * w (ix3 (0 : Fin 1) e q) := by
  refine (Cert.LibMatmulAnyFormat.matmul_zero_entry dot_S1024x1024_S1024x512_S1024x512_1_0_0_1_n_n rfl rfl rfl rfl rfl rfl none
    (shapeCast S1024x1024 x shapeCasts_S1024x1024_S1024x1024)
    (shapeCast S1024x512 w shapeCasts_S1x1024x512_S1024x512) p q).trans ?_
  refine Finset.sum_congr rfl fun e _ => ?_
  rw [shapeCast_self, tapMatrix_apply]

/-- Entry (p, q) of the block the body stores: the three products at (p, q) added left to right, then the bias at
    q, then the maximum with zero. Row p of each sequence block and column q of each tap are all it reads. -/
theorem pay_entry (x0 x1 x2 : FVec Ideal S1024x1024 .bf16) (w0 w1 w2 : FVec Ideal S1x1024x512 .bf16)
    (b : FVec Ideal S1x512 .f32) (p : Fin 1024) (q : Fin 512) :
    k0_pay1 (F := Ideal) x0 w0 x1 w1 x2 w2 b (ix2 p q)
      = max ((((∑ e : Fin 1024, x0 (ix2 p e) * w0 (ix3 (0 : Fin 1) e q))
              + ∑ e : Fin 1024, x1 (ix2 p e) * w1 (ix3 (0 : Fin 1) e q))
              + ∑ e : Fin 1024, x2 (ix2 p e) * w2 (ix3 (0 : Fin 1) e q))
            + b (ix2 (0 : Fin 1) q)) 0 := by
  unfold k0_pay1
  rw [maximumf_apply, addf_apply, addf_apply, addf_apply, broadcast_apply]
  rw [product_apply, product_apply, product_apply]
  rw [shapeCast_self, broadcastTo_1b_ab_apply]
  show max _ (Ideal.ofBits .f32 0x00000000#32) = _
  rw [Ideal.ofBits_zero_f32]

/-! ## The stored block in terms of the arrays the blocks are cut from -/

/-- The offsets of a rectangle that starts at the corner of a two-axis buffer are zero on both axes. -/
theorem corner_offsets : (![0, 0] : Fin 2 → Nat) = fun _ => 0 := funext fun a => by fin_cases a <;> rfl

/-- The rows of the [3, 1024, 512] tap array that the load of tap k reads: entry (0, e, q) of the loaded
    [1, 1024, 512] piece is entry (k, e, q) of the array. -/
theorem tapRect_idx (n : Nat) (inb : ∀ a, (![n, 0, 0] : Fin 3 → Nat) a + S1x1024x512.size a ≤ S3x1024x512.size a)
    (k : Fin 3) (hk : k.val = n) (e : Fin 1024) (q : Fin 512) :
    (Rect.unit (s := S3x1024x512) ![n, 0, 0] S1x1024x512.size inb).idx (ix3 (0 : Fin 1) e q) = ix3 k e q := by
  funext a; apply Fin.ext
  match a with
  | ⟨0, _⟩ => show n + 1 * 0 = k.val; omega
  | ⟨1, _⟩ => show 0 + 1 * e.val = e.val; omega
  | ⟨2, _⟩ => show 0 + 1 * q.val = q.val; omega

/-- Entry (p, q) of the stored block when row p of each sequence block is row r of its array and the tap and bias
    blocks agree with their arrays on column q: the hidden feature of row r at q. -/
theorem block_entry (X0 X1 X2 : (⟨2, ![4096, 1024]⟩ : Shape).Idx → EReal) (W : (⟨3, ![3, 1024, 512]⟩ : Shape).Idx → EReal)
    (B : (⟨2, ![1, 512]⟩ : Shape).Idx → EReal)
    (x0 x1 x2 : Vec Ideal S1024x1024 .bf16) (x3 : Vec Ideal S3x1024x512 .bf16) (x4 : Vec Ideal S1x512 .f32)
    (p : Fin 1024) (q : Fin 512) (r : Fin 4096)
    (h0 : ∀ e : Fin 1024, x0 (ix2 p e) = X0 (ix2 r e)) (h1 : ∀ e : Fin 1024, x1 (ix2 p e) = X1 (ix2 r e))
    (h2 : ∀ e : Fin 1024, x2 (ix2 p e) = X2 (ix2 r e))
    (h3 : ∀ (k : Fin 3) (e : Fin 1024), x3 (ix3 k e q) = W (ix3 k e q)) (h4 : x4 (ix2 (0 : Fin 1) q) = B (ix2 (0 : Fin 1) q)) :
    k0_pay1 (F := Ideal) (View.ld x0 r0_0) (View.ld x3 r0_1) (View.ld x1 r0_0) (View.ld x3 r0_2) (View.ld x2 r0_0)
        (View.ld x3 r0_3) (View.ld x4 r0_4) (ix2 p q)
      = Cert.ConvNet.hidden X0 X1 X2 W B r q := by
  refine (pay_entry _ _ _ _ _ _ _ p q).trans ?_
  rw [View.ld_unit_zero (S := S1024x1024) corner_offsets, View.ld_unit_zero (S := S1024x1024) corner_offsets,
    View.ld_unit_zero (S := S1024x1024) corner_offsets, View.ld_unit_zero (S := S1x512) corner_offsets]
  have s0 : (∑ e : Fin 1024, x0 (ix2 p e) * View.ld (Val := Elt Ideal) x3 r0_1 (ix3 (0 : Fin 1) e q)) = Cert.ConvNet.tap X0 W 0 r q :=
    Finset.sum_congr rfl fun e _ => by
      rw [h0 e]; exact congrArg (X0 (ix2 r e) * ·) ((congrArg x3 (tapRect_idx 0 _ 0 rfl e q)).trans (h3 0 e))
  have s1 : (∑ e : Fin 1024, x1 (ix2 p e) * View.ld (Val := Elt Ideal) x3 r0_2 (ix3 (0 : Fin 1) e q)) = Cert.ConvNet.tap X1 W 1 r q :=
    Finset.sum_congr rfl fun e _ => by
      rw [h1 e]; exact congrArg (X1 (ix2 r e) * ·) ((congrArg x3 (tapRect_idx 1 _ 1 rfl e q)).trans (h3 1 e))
  have s2 : (∑ e : Fin 1024, x2 (ix2 p e) * View.ld (Val := Elt Ideal) x3 r0_3 (ix3 (0 : Fin 1) e q)) = Cert.ConvNet.tap X2 W 2 r q :=
    Finset.sum_congr rfl fun e _ => by
      rw [h2 e]; exact congrArg (X2 (ix2 r e) * ·) ((congrArg x3 (tapRect_idx 2 _ 2 rfl e q)).trans (h3 2 e))
  rw [s0, s1, s2, h4]
  rfl

/-! ## Where each window's block sits in its array -/

/-- The block indices at every point of the grid, decided over its four points: the three sequence windows move
    with the output along the rows and stay at the first block of columns, the tap and bias windows stay at
    their one block, and the output's block of rows at point t is block t. -/
theorem block_indices : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = win0_5.index t (0 : Fin 2) ∧ win0_2.index t (1 : Fin 2) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 2) = t.val ∧ win0_5.index t (1 : Fin 2) = 0 ∧ t.val < 4 :=
  (by decide +kernel : ∀ t : Fin grid0.N, _)

section Blocks

variable (V : (c : Dev nD) → (b : Ref sig .tc) → Buf (Elt Ideal) ((c : Thread nD τ).loc b)) (c : Dev nD) (t : Fin cfg0.N)

/-- Row p of the first sequence window's block at point t is row (block index · 1024 + p) of its array. -/
theorem seqBlock0_apply (p e : Fin 1024) (r : Fin 4096) (hr : r.val = win0_5.index t (0 : Fin 2) * 1024 + p.val) :
    (iblk0 (F := Ideal) V c 0 t : Vec Ideal S1024x1024 .bf16) (ix2 p e) = (V c main_v11 : S4096x1024.Idx → EReal) (ix2 r e) := by
  obtain ⟨e0, e1, -⟩ := block_indices t
  unfold iblk0
  rw [View.read_apply]
  show V c main_v11 _ = V c main_v11 _
  refine congrArg (V c main_v11) (funext fun a => Fin.ext ?_)
  match a with
  | ⟨0, _⟩ => show win0_0.index t (0 : Fin 2) * 1024 + 1 * p.val = r.val; omega
  | ⟨1, _⟩ => show win0_0.index t (1 : Fin 2) * 1024 + 1 * e.val = e.val; omega

/-- The same for the second sequence window. -/
theorem seqBlock1_apply (p e : Fin 1024) (r : Fin 4096) (hr : r.val = win0_5.index t (0 : Fin 2) * 1024 + p.val) :
    (iblk0 (F := Ideal) V c 1 t : Vec Ideal S1024x1024 .bf16) (ix2 p e) = (V c main_v13 : S4096x1024.Idx → EReal) (ix2 r e) := by
  obtain ⟨-, -, e0, e1, -⟩ := block_indices t
  unfold iblk0
  rw [View.read_apply]
  show V c main_v13 _ = V c main_v13 _
  refine congrArg (V c main_v13) (funext fun a => Fin.ext ?_)
  match a with
  | ⟨0, _⟩ => show win0_1.index t (0 : Fin 2) * 1024 + 1 * p.val = r.val; omega
  | ⟨1, _⟩ => show win0_1.index t (1 : Fin 2) * 1024 + 1 * e.val = e.val; omega

/-- The same for the third sequence window. -/
theorem seqBlock2_apply (p e : Fin 1024) (r : Fin 4096) (hr : r.val = win0_5.index t (0 : Fin 2) * 1024 + p.val) :
    (iblk0 (F := Ideal) V c 2 t : Vec Ideal S1024x1024 .bf16) (ix2 p e) = (V c main_v15 : S4096x1024.Idx → EReal) (ix2 r e) := by
  obtain ⟨-, -, -, -, e0, e1, -⟩ := block_indices t
  unfold iblk0
  rw [View.read_apply]
  show V c main_v15 _ = V c main_v15 _
  refine congrArg (V c main_v15) (funext fun a => Fin.ext ?_)
  match a with
  | ⟨0, _⟩ => show win0_2.index t (0 : Fin 2) * 1024 + 1 * p.val = r.val; omega
  | ⟨1, _⟩ => show win0_2.index t (1 : Fin 2) * 1024 + 1 * e.val = e.val; omega

/-- The tap window's one block is the whole tap array. -/
theorem tapBlock_apply (k : Fin 3) (e : Fin 1024) (q : Fin 512) :
    (iblk0 (F := Ideal) V c 3 t : Vec Ideal S3x1024x512 .bf16) (ix3 k e q) = (V c main_v17 : S3x1024x512.Idx → EReal) (ix3 k e q) := by
  obtain ⟨-, -, -, -, -, -, e0, e1, e2, -⟩ := block_indices t
  unfold iblk0
  rw [View.read_apply]
  show V c main_v17 _ = V c main_v17 _
  refine congrArg (V c main_v17) (funext fun a => Fin.ext ?_)
  match a with
  | ⟨0, _⟩ => show win0_3.index t (0 : Fin 3) * 3 + 1 * k.val = k.val; omega
  | ⟨1, _⟩ => show win0_3.index t (1 : Fin 3) * 1024 + 1 * e.val = e.val; omega
  | ⟨2, _⟩ => show win0_3.index t (2 : Fin 3) * 512 + 1 * q.val = q.val; omega

/-- The bias window's one block is the whole bias row. -/
theorem biasBlock_apply (u : Fin 1) (q : Fin 512) :
    (iblk0 (F := Ideal) V c 4 t : Vec Ideal S1x512 .f32) (ix2 u q) = (V c main_v18 : S1x512.Idx → EReal) (ix2 u q) := by
  obtain ⟨-, -, -, -, -, -, -, -, -, e0, e1, -⟩ := block_indices t
  unfold iblk0
  rw [View.read_apply]
  show V c main_v18 _ = V c main_v18 _
  refine congrArg (V c main_v18) (funext fun a => Fin.ext ?_)
  match a with
  | ⟨0, _⟩ => show win0_4.index t (0 : Fin 2) * 1 + 1 * u.val = u.val; omega
  | ⟨1, _⟩ => show win0_4.index t (1 : Fin 2) * 512 + 1 * q.val = q.val; omega

/-! ## What a point writes back -/

/-- Point t writes back block t of the array of hidden features of the five arrays as the region finds them: rows
    1024·t … 1024·t + 1023, all 512 columns. Its entry (p, q) is the stored block's, whose sequence rows are rows
    1024·t + p of the three arrays. -/
theorem flushed_eq :
    (dat0 (F := Ideal) V c).flushed 5 t
      = ((cfg0.win 5).blk t).view.read (Elt Ideal)
          (Cert.ConvNet.hiddenArr (V c main_v11) (V c main_v13) (V c main_v15) (V c main_v17) (V c main_v18)) := by
  show (cfg0.win 5).cut (grid0.coords t) ((dat0 V c).after 5 t) = _
  rw [after0_5]
  unfold out0_5
  rw [View.canon_unit_zero corner_offsets]
  funext j
  have hp : (j 0).val < 1024 := (j 0).isLt
  have hq : (j 1).val < 512 := (j 1).isLt
  obtain ⟨-, -, -, -, -, -, -, -, -, -, -, e5, e6, ht⟩ := block_indices t
  have hj : win0_5.xinj (grid0.coords t) j = ix2 (⟨(j 0).val, hp⟩ : Fin 1024) (⟨(j 1).val, hq⟩ : Fin 512) :=
    funext fun a => by match a with | ⟨0, _⟩ => rfl | ⟨1, _⟩ => rfl
  show k0_pay1 _ _ _ _ _ _ _ (win0_5.xinj (grid0.coords t) j) = _
  rw [hj]
  refine (block_entry (V c main_v11) (V c main_v13) (V c main_v15) (V c main_v17) (V c main_v18)
    (iblk0 V c 0 t) (iblk0 V c 1 t) (iblk0 V c 2 t) (iblk0 V c 3 t) (iblk0 V c 4 t)
    ⟨(j 0).val, hp⟩ ⟨(j 1).val, hq⟩ ⟨win0_5.index t (0 : Fin 2) * 1024 + (j 0).val, by omega⟩
    (fun e => seqBlock0_apply V c t _ e _ rfl) (fun e => seqBlock1_apply V c t _ e _ rfl)
    (fun e => seqBlock2_apply V c t _ e _ rfl) (fun k e => tapBlock_apply V c t k e _)
    (biasBlock_apply V c t 0 _)).trans ?_
  show _ = Cert.ConvNet.hidden _ _ _ _ _ ((((cfg0.win 5).blk t).view.emb j) 0) ((((cfg0.win 5).blk t).view.emb j) 1)
  congr 1 <;> apply Fin.ext
  · show win0_5.index t (0 : Fin 2) * 1024 + (j 0).val = win0_5.index t (0 : Fin 2) * 1024 + 1 * (j 0).val; omega
  · show (j 1).val = win0_5.index t (1 : Fin 2) * 512 + 1 * (j 1).val; omega

end Blocks

/-! ## The four blocks are the whole array -/

/-- An index of the output array is in point t's block iff each coordinate is in the block's range on its axis. -/
theorem mem_blk (t : Fin cfg0.N) (i : S4096x512.Idx) :
    i ∈ ((cfg0.win 5).blk t).view.set ↔ ∀ a : Fin 2, win0_5.index t a * S1024x512.size a ≤ (i a).val ∧ (i a).val < win0_5.index t a * S1024x512.size a + S1024x512.size a := by
  show i ∈ ((View.whole main_v19).slice (win0_5.rect t)).set ↔ _
  rw [View.set_slice_whole, Rect.mem_set_unit]
  exact Iff.rfl

/-- Every block of rows is some point's: block n is point n's. -/
theorem every_row_band : ∀ n : Fin 4, ∃ t : Fin cfg0.N, win0_5.index t = ![n.val, 0] :=
  (by decide +kernel : ∀ n : Fin 4, ∃ t : Fin grid0.N, win0_5.index t = ![n.val, 0])

/-- Every index of the output array is in the block of a point that writes back: row r in that of point r / 1024. -/
theorem cover (i : S4096x512.Idx) : ∃ t : Fin cfg0.N, (cfg0.win 5).flush t = true ∧ i ∈ ((cfg0.win 5).blk t).view.set := by
  have hi0 : (i 0).val < 4096 := (i 0).isLt
  have hi1 : (i 1).val < 512 := (i 1).isLt
  obtain ⟨t, ht⟩ := every_row_band ⟨(i 0).val / 1024, by omega⟩
  have q0 : win0_5.index t (0 : Fin 2) = (i 0).val / 1024 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 512 ≤ (i 1).val ∧ (i 1).val < win0_5.index t (1 : Fin 2) * 512 + 512; omega

/-- The output array after the region, whatever the buffers held when it was entered: the hidden features of the
    three shifted sequences, the taps and the bias as the region found them. Every point writes its block back and
    the four blocks of rows cover the array, so nothing of its earlier contents is left. -/
theorem final (V : (c : Dev nD) → (b : Ref sig .tc) → Buf (Elt Ideal) ((c : Thread nD τ).loc b)) (c : Dev nD) :
    (Gen.dat0 (F := Ideal) V c).arrAt 5 cfg0.N
      = Cert.ConvNet.hiddenArr (V c main_v11) (V c main_v13) (V c main_v15) (V c main_v17) (V c main_v18) :=
  (Gen.dat0 (F := Ideal) V c).arrAt_eq_of_cover 5 _ (fun t _ => flushed_eq V c t) cover

end Cert.KernelIdeal.ConvRegion

end
-- ==== Proof.LibTransposedDot.lean ====
/-
  A matrix product whose right operand is contracted on its LAST axis: `x · Wᵀ`.

  For a left operand `[M, K]` and a right operand `[N, K]`, both contracted on their second axis and with no
  batch axis, the entry `(p, q)` of the product is the inner product of row `p` of the left operand with
  row `q` of the right one: `∑ i : Fin K, l (p, i) · r (q, i)`.  Stated for every extent, over the
  dimension record `DotDims.transposedRhs M K N`, for the contraction's sum itself, for a matrix unit's product
  into a zero accumulator and for a host `dot_general`; a record given by name is brought in by an equation
  `D = DotDims.transposedRhs M K N` (true by `rfl` for a record with these axis lists).
-/
import Idealize.ShloMosaic.PureOps.Ideal
import Idealize.ShloMosaic.PureOps.Ideal.Laws
import Idealize.ShloMosaic.Lib.ValueIdx
import proofs.«103292_j78769700209271_2_alg».proof.Proof.LibDotSum

noncomputable section

namespace Cert.LibTransposedDot

open Idealize.ShloMosaic Idealize.ShloMosaic.ValueIdx
open scoped BigOperators

variable {M K N : Nat}

/-- The left operand is read in the output's row … -/
theorem lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- … at the contraction's coordinate; -/
theorem lhs_col (j : (⟨2, ![M, N]⟩ : Shape).Idx) (k : (DotDims.transposedRhs M K N).contr.Idx) :
    ((DotDims.transposedRhs M K N).lhsIdx j k 1).val = (k ⟨0, Nat.one_pos⟩).val :=
  (DotDims.transposedRhs M K N).lhsIdx_val_of_single rfl j k

/-- the right operand in the row the output's COLUMN names … -/
theorem rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- … at the contraction's coordinate. -/
theorem rhs_col (j : (⟨2, ![M, N]⟩ : Shape).Idx) (k : (DotDims.transposedRhs M K N).contr.Idx) :
    ((DotDims.transposedRhs M K N).rhsIdx j k 1).val = (k ⟨0, Nat.one_pos⟩).val :=
  (DotDims.transposedRhs M K N).rhsIdx_val_of_single rfl j k

/-- The contraction's sum at output entry `(p, q)`: row `p` of the left operand against row `q` of the right. -/
theorem sum_contr (l : (⟨2, ![M, K]⟩ : Shape).Idx → EReal) (r : (⟨2, ![N, K]⟩ : Shape).Idx → EReal) (p : Fin M) (q : Fin N) :
    ∑ k : (DotDims.transposedRhs M K N).contr.Idx,
        l ((DotDims.transposedRhs M K N).lhsIdx (ix2 p q) k) * r ((DotDims.transposedRhs M K N).rhsIdx (ix2 p q) k)
      = ∑ i : Fin K, l (ix2 p i) * r (ix2 q i) := by
  refine Cert.LibDotSum.sum_contr_eq (DotDims.transposedRhs M K N) K rfl rfl l r (ix2 p q) _ _ (fun i => ?_) (fun i => ?_)
  · have hk := contrEquiv1_symm_val (DotDims.transposedRhs M K N) K rfl rfl i
    refine congrArg l (funext fun a => Fin.ext ?_)
    match a with
    | ⟨0, _⟩ => exact lhs_row _ _
    | ⟨1, _⟩ => exact (lhs_col _ _).trans hk
  · have hk := contrEquiv1_symm_val (DotDims.transposedRhs M K N) K rfl rfl i
    refine congrArg r (funext fun a => Fin.ext ?_)
    match a with
    | ⟨0, _⟩ => exact rhs_row _ _
    | ⟨1, _⟩ => exact (rhs_col _ _).trans hk

/-- A matrix unit's product into the zero accumulator, read at `(p, q)`. -/
theorem matmul_zero_apply {φ₁ φ₂ : FTy} (D : DotDims ⟨2, ![M, K]⟩ ⟨2, ![N, K]⟩ ⟨2, ![M, N]⟩)
    (hD : D = DotDims.transposedRhs M K N) (prec : Option ContractPrecision)
    (l : FVec Ideal ⟨2, ![M, K]⟩ φ₁) (r : FVec Ideal ⟨2, ![N, K]⟩ φ₂) (p : Fin M) (q : Fin N) :
    matmul D prec l r (constant (F := Ideal) ⟨2, ![M, N]⟩ .f32 0x00000000#32) (ix2 p q)
      = ∑ i : Fin K, l (ix2 p i) * r (ix2 q i) := by
  subst hD
  exact (Ideal.matmul_constant_zero_apply _ prec l r (ix2 p q)).trans (sum_contr l r p q)

/-- A host `dot_general` with these dimension numbers, read at `(p, q)`. -/
theorem dotGeneral_apply {φ₁ φ₂ : FTy} (D : DotDims ⟨2, ![M, K]⟩ ⟨2, ![N, K]⟩ ⟨2, ![M, N]⟩)
    (hD : D = DotDims.transposedRhs M K N) (prec : Option ContractPrecision)
    (l : FVec Ideal ⟨2, ![M, K]⟩ φ₁) (r : FVec Ideal ⟨2, ![N, K]⟩ φ₂) (p : Fin M) (q : Fin N) :
    Host.dotGeneral D prec l r (ix2 p q) = ∑ i : Fin K, l (ix2 p i) * r (ix2 q i) := by
  subst hD
  exact (Ideal.dotGeneral_apply _ prec .single l r (ix2 p q)).trans (sum_contr l r p q)

end Cert.LibTransposedDot

end
-- ==== Proof.LinearRegion.lean ====
/-
  The linear layer's region: the array it leaves, as one function of the three arrays it reads.

  The region runs a 10 × 4 grid. At the point with coordinates (j, i) its body holds three blocks: rows
  1024·i … 1024·i + 1023 of the [4096, 512] feature array, rows 3200·j … 3200·j + 3199 of the [32000, 512] weight
  array, and columns 3200·j … 3200·j + 3199 of the one-row [1, 32000] bias array. From them it computes a
  [1024, 3200] block — entry (p, q) is the inner product over the 512 features of feature row p with weight row q,
  plus bias entry q — and writes it back as the block of the [4096, 32000] output whose corner is
  (1024·i, 3200·j).

  Read in the whole arrays, entry (p, q) of that block is output entry (r, v) = (1024·i + p, 3200·j + q), and it
  reads feature row r, weight row v and bias entry v: exactly the logit of row r and vocabulary entry v. The
  forty output blocks fill the array, so after the last point the array holds the logits everywhere. Nothing here depends on what the arrays contain when the region is entered.
-/
import proofs.«103292_j78769700209271_2_alg».proof.Proof.Gen.KernelIdeal.Frame
import proofs.«103292_j78769700209271_2_alg».proof.Proof.Spec
import proofs.«103292_j78769700209271_2_alg».proof.Proof.LibTransposedDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.LinearRegion

open Cert.KernelIdeal Cert.KernelIdeal.Gen
open Idealize.ShloMosaic Idealize.ShloMosaic.ValueIdx Idealize.ShloMosaic.TcCoe
open Idealize.SL Idealize.SL.Sem
open Idealize.ShloMosaic.Pipeline (Dat Cfg Window)
open scoped BigOperators

/-! ## One entry of the block a point computes -/

/-- Entry `(p, q)` of the computed block, from the three blocks the body holds: row `p` of the feature block
    against row `q` of the weight block, summed over the 512 features, plus entry `q` of the bias block's one
    row. The casts to the same shape change nothing, the product into a zero accumulator is the plain sum, and
    the bias row is repeated down all 1024 rows. -/
theorem pay_apply (x0 : Vec Ideal S1024x512 .bf16) (x1 : Vec Ideal S3200x512 .bf16) (x2 : Vec Ideal S1x3200 .f32)
    (p : Fin 1024) (q : Fin 3200) :
    Gen.k1_pay1 x0 x1 x2 (ix2 p q) = (∑ h : Fin 512, x0 (ix2 p h) * x1 (ix2 q h)) + x2 (ix2 0 q) := by
  unfold Gen.k1_pay1
  refine (addf_apply _ _ (ix2 p q)).trans ?_
  refine congrArg₂ (· + ·) ?_ ?_
  · refine (Cert.LibTransposedDot.matmul_zero_apply dot_S1024x512_S3200x512_S1024x3200_1_1_0_0_n_n rfl none _ _ p q).trans ?_
    rw [shapeCast_self, shapeCast_self]
  · refine (broadcastTo_1b_ab_apply _ broadcasts_S1x3200_S1024x3200 p q).trans ?_
    rw [shapeCast_self]

/-! ## Where a point's blocks sit in their arrays -/

/-- The body reads and writes each of its blocks from the block's own corner. -/
theorem zero_offsets : (![0, 0] : Fin 2 → Nat) = fun _ => 0 := funext fun a => by fin_cases a <;> rfl

/-- Checked at each of the forty points: the feature block is in the output block's row band and spans all the
    features; the weight block's rows and the bias block's columns are the output block's column band, and both
    span their other axis whole; and the output block's row band is one of four, its column band one of ten. -/
theorem block_indices : ∀ t : Fin cfg1.N,
    win1_0.index t (0 : Fin 2) = win1_3.index t (0 : Fin 2)
    ∧ win1_0.index t (1 : Fin 2) = 0
    ∧ win1_1.index t (0 : Fin 2) = win1_3.index t (1 : Fin 2)
    ∧ win1_1.index t (1 : Fin 2) = 0
    ∧ win1_2.index t (0 : Fin 2) = 0
    ∧ win1_2.index t (1 : Fin 2) = win1_3.index t (1 : Fin 2)
    ∧ win1_3.index t (0 : Fin 2) ≤ 3
    ∧ win1_3.index t (1 : Fin 2) ≤ 9 :=
  (by decide +kernel : ∀ t : Fin grid1.N, _)

/-- Every pair of a row band and a column band is the output block of some point. -/
theorem every_band_pair : ∀ (i : Fin 4) (j : Fin 10), ∃ t : Fin cfg1.N, win1_3.index t = ![i.val, j.val] :=
  (by decide +kernel : ∀ (i : Fin 4) (j : Fin 10), ∃ t : Fin grid1.N, win1_3.index t = ![i.val, j.val])

/-! ## A point's block is a block of the logits -/

/-- For any three arrays `A`, `W`, `B`: the sum over the features of `A` and `W` read through the point's feature
    and weight blocks at `(p, ·)` and `(q, ·)`, plus `B` read through its bias block at `q`, is the logit of `A`,
    `W`, `B` at the place of the whole output where entry `(p, q)` of the point's output block sits. Row
    `1024·i + p` of the output is the same row of `A`; column `3200·j + q` of the output is row `3200·j + q` of
    `W` and column `3200·j + q` of `B`; a coordinate along a whole axis is itself. -/
theorem block_entry (A : S4096x512.Idx → EReal) (W : S32000x512.Idx → EReal) (B : S1x32000.Idx → EReal)
    (t : Fin cfg1.N) (p : Fin 1024) (q : Fin 3200) :
    (∑ h : Fin 512, A (((cfg1.win 0).blk t).view.emb (ix2 p h)) * W (((cfg1.win 1).blk t).view.emb (ix2 q h)))
        + B (((cfg1.win 2).blk t).view.emb (ix2 0 q))
      = Cert.ConvNet.logitArr A W B (((cfg1.win 3).blk t).view.emb (ix2 p q)) := by
  obtain ⟨e00, e01, e10, e11, e20, e21, -, -⟩ := block_indices t
  have hA : ∀ h : Fin 512, ((cfg1.win 0).blk t).view.emb (ix2 p h)
      = (ix2 ((((cfg1.win 3).blk t).view.emb (ix2 p q)) 0) h : S4096x512.Idx) := fun h => by
    funext a; apply Fin.ext
    match a with
    | ⟨0, _⟩ => show win1_0.index t (0 : Fin 2) * 1024 + 1 * p.val = win1_3.index t (0 : Fin 2) * 1024 + 1 * p.val; omega
    | ⟨1, _⟩ => show win1_0.index t (1 : Fin 2) * 512 + 1 * h.val = h.val; omega
  have hW : ∀ h : Fin 512, ((cfg1.win 1).blk t).view.emb (ix2 q h)
      = (ix2 ((((cfg1.win 3).blk t).view.emb (ix2 p q)) 1) h : S32000x512.Idx) := fun h => by
    funext a; apply Fin.ext
    match a with
    | ⟨0, _⟩ => show win1_1.index t (0 : Fin 2) * 3200 + 1 * q.val = win1_3.index t (1 : Fin 2) * 3200 + 1 * q.val; omega
    | ⟨1, _⟩ => show win1_1.index t (1 : Fin 2) * 512 + 1 * h.val = h.val; omega
  have hB : ((cfg1.win 2).blk t).view.emb (ix2 0 q)
      = (ix2 0 ((((cfg1.win 3).blk t).view.emb (ix2 p q)) 1) : S1x32000.Idx) := by
    funext a; apply Fin.ext
    match a with
    | ⟨0, _⟩ => show win1_2.index t (0 : Fin 2) * 1 + 1 * 0 = 0; omega
    | ⟨1, _⟩ => show win1_2.index t (1 : Fin 2) * 3200 + 1 * q.val = win1_3.index t (1 : Fin 2) * 3200 + 1 * q.val; omega
  unfold Cert.ConvNet.logitArr Cert.ConvNet.logit
  refine congrArg₂ (· + ·) (Finset.sum_congr rfl fun h _ => ?_) (congrArg B hB)
  exact congrArg₂ (· * ·) (congrArg A (hA h)) (congrArg W (hW h))

/-- What a point writes back is its block of the logits of the three arrays as the region finds them: the body's
    one store fills the whole block with the computed entries, each input block is its array read through the
    point's rectangle, and entry by entry that is `block_entry`. -/
theorem flushed_eq (V : (c : Dev nD) → (b : Ref sig .tc) → Buf (Elt Ideal) ((c : Thread nD τ).loc b)) (c : Dev nD) (t : Fin cfg1.N) :
    (Gen.dat1 (F := Ideal) V c).flushed 3 t
      = ((cfg1.win 3).blk t).view.read (Elt Ideal) (Cert.ConvNet.logitArr (V c main_v22) (V c main_v20) (V c main_v21)) := by
  show (cfg1.win 3).cut (grid1.coords t) ((Gen.dat1 V c).after 3 t) = _
  rw [Gen.after1_3]
  unfold Gen.out1_3
  rw [View.canon_unit_zero zero_offsets]
  simp only [View.ld_unit_zero (S := S1024x512) zero_offsets, View.ld_unit_zero (S := S3200x512) zero_offsets,
    View.ld_unit_zero (S := S1x3200) zero_offsets]
  funext j
  obtain ⟨p, q, rfl⟩ : ∃ (p : Fin 1024) (q : Fin 3200), j = ix2 p q := ⟨j 0, j 1, eq_ix2 j⟩
  show Gen.k1_pay1 (Gen.iblk1 V c 0 t) (Gen.iblk1 V c 1 t) (Gen.iblk1 V c 2 t) (ix2 p q)
    = Cert.ConvNet.logitArr (V c main_v22) (V c main_v20) (V c main_v21) (((cfg1.win 3).blk t).view.emb (ix2 p q))
  refine (pay_apply _ _ _ p q).trans ?_
  exact block_entry (V c main_v22) (V c main_v20) (V c main_v21) t p q

/-! ## The forty blocks fill the array -/

/-- A place of the output is in a point's block exactly when its row is in the point's band of 1024 rows and its
    column in the point's band of 3200 columns. -/
theorem mem_blk (t : Fin cfg1.N) (i : S4096x32000.Idx) :
    i ∈ ((cfg1.win 3).blk t).view.set ↔ ∀ a : Fin 2, win1_3.index t a * S1024x3200.size a ≤ (i a).val
      ∧ (i a).val < win1_3.index t a * S1024x3200.size a + S1024x3200.size a := by
  show i ∈ ((View.whole main_v23).slice (win1_3.rect t)).set ↔ _
  rw [View.set_slice_whole, Rect.mem_set_unit]
  exact Iff.rfl

/-- Every place `(r, v)` of the output is written by some point: the one whose row band is `r / 1024` and whose
    column band is `v / 3200`. -/
theorem cover (i : S4096x32000.Idx) :
    ∃ t : Fin cfg1.N, (cfg1.win 3).flush t = true ∧ i ∈ ((cfg1.win 3).blk t).view.set := by
  have hi0 : (i 0).val < 4096 := (i 0).isLt
  have hi1 : (i 1).val < 32000 := (i 1).isLt
  obtain ⟨t, ht⟩ := every_band_pair ⟨(i 0).val / 1024, by omega⟩ ⟨(i 1).val / 3200, by omega⟩
  have q0 : win1_3.index t (0 : Fin 2) = (i 0).val / 1024 := congrFun ht 0
  have q1 : win1_3.index t (1 : Fin 2) = (i 1).val / 3200 := congrFun ht 1
  refine ⟨t, Gen.flush1_3 t, ?_⟩
  rw [mem_blk]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 3200 ≤ (i 1).val ∧ (i 1).val < win1_3.index t (1 : Fin 2) * 3200 + 3200; omega

/-! ## The array the region leaves -/

/-- After the last point the output array is the logits of the feature, weight and bias arrays as the region
    found them, whatever those arrays hold: every point writes its block of that one array, and the blocks
    fill it. -/
theorem final (V : (c : Dev nD) → (b : Ref sig .tc) → Buf (Elt Ideal) ((c : Thread nD τ).loc b)) (c : Dev nD) :
    (Gen.dat1 (F := Ideal) V c).arrAt 3 cfg1.N
      = Cert.ConvNet.logitArr (V c main_v22) (V c main_v20) (V c main_v21) :=
  (Gen.dat1 (F := Ideal) V c).arrAt_eq_of_cover 3 _ (fun t _ => flushed_eq V c t) cover

end Cert.KernelIdeal.LinearRegion

end
-- ==== Proof.KernelRun.lean ====
/-
  The idealized kernel's run, with the result array named.

  The program is five stretches: host operations, the convolution region, three host operations, the linear region,
  and one closing reshape.  The buffer contents at each boundary are a fold from the launch memory (the generated
  frame module names them `W0` … `W5`), and the launch theorem for a list of segments ends every weakly fair
  execution in a state whose unscoped buffers hold the last boundary's contents `W5`.  Read at the result buffer
  that is the logits; read at an argument it is the launch contents.
-/
import proofs.«103292_j78769700209271_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with every unscoped buffer of every
    core at the last boundary's contents. -/
theorem run_boundary : θ_run defs (onTc (τ := τ) (main (F := F))) ⟨m, fun _ => 0, ρ⟩
    (fun r => ∀ c : Dev nD, ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun _ h => h)

/-- The same run read at the result and at the arguments: the result buffer holds the last boundary's contents
    there, each argument what it held at launch. -/
theorem run : θ_run defs (onTc (τ := τ) (main (F := F))) ⟨m, fun _ => 0, ρ⟩ (fun r => ∀ c : Dev nD,
      r.2.mem ((c.tc : Thread nD τ).loc main_v24) = W5 m ρ c (Proc.devRef .tc main_v24)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
      ⟨h c _ (mem_uc main_v24 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)
    (run_boundary m ρ)

end Cert.KernelIdeal.Result

end
-- ==== Proof.Layout.lean ====
/-
  The kernel's host-side re-layouts, read at an entry.

  The kernel feeds its first region three copies of the embedded, padded sequence [1026, 4, 1024], each a window of
  1024 consecutive positions flattened to [4096, 1024]: row 4·s + b of copy j is position s + j of batch entry b.
  Its taps are the convolution weight [feature, embedding, tap] with the axes reversed, and its result
  [4096, 32000] is unflattened to [1024, 4, 32000] by the same row numbering.
-/
import Idealize.ShloMosaic.PureOps.Ideal
import Idealize.ShloMosaic.Lib.ValueIdx
import Idealize.ShloMosaic.Lib.ValueLayout
import Idealize.ShloMosaic.Lib.Pipeline.Value
import proofs.«103292_j78769700209271_2_alg».proof.Proof.Spec

noncomputable section

namespace Cert.ConvNet

open Idealize.ShloMosaic Idealize.ShloMosaic.ValueIdx

variable {α : Type}

/-- The flattened row of position `s`, batch entry `b`. -/
def row (s : Fin 1024) (b : Fin 4) : Fin 4096 := ⟨s.val * 4 + b.val, by have := s.isLt; have := b.isLt; omega⟩

/-- A window of 1024 positions starting at `j`, flattened: row 4·s + b reads position s + j of batch entry b. -/
theorem window_flat_apply (Y : (⟨3, ![1026, 4, 1024]⟩ : Shape).Idx → α) (j : Fin 3)
    (hs : (⟨3, ![1026, 4, 1024]⟩ : Shape).Slices ![j.val, 0, 0] ⟨3, ![1024, 4, 1024]⟩)
    (hc : (⟨3, ![1024, 4, 1024]⟩ : Shape).ShapeCasts ⟨2, ![4096, 1024]⟩) (s : Fin 1024) (b : Fin 4) (e : Fin 1024) :
    shapeCast ⟨2, ![4096, 1024]⟩ (extractStridedSlice ⟨3, ![1024, 4, 1024]⟩ ![j.val, 0, 0] Y hs) hc (ix2 (row s b) e)
      = Y (ix3 (shift s j) b e) := by
  refine (shapeCast_apply _ hc (ix2 (row s b) e) (ix3 s b e) ?_).trans ?_
  · rw [Shape.rowMajor_val_three, Shape.rowMajor_val_two]
    rfl
  · exact extractStridedSlice_apply _ Y hs (ix3 s b e) (ix3 (shift s j) b e) (fun a => match a with
      | ⟨0, _⟩ => by show s.val + j.val = j.val + s.val; omega
      | ⟨1, _⟩ => by show b.val = 0 + b.val; omega
      | ⟨2, _⟩ => by show e.val = 0 + e.val; omega)

/-- The weight with its axes reversed: entry (tap, embedding, feature) is entry (feature, embedding, tap). -/
theorem reversed_axes_apply (cw : (⟨3, ![512, 1024, 3]⟩ : Shape).Idx → α)
    (h : (⟨3, ![512, 1024, 3]⟩ : Shape).Transposes [2, 1, 0] ⟨3, ![3, 1024, 512]⟩) (j : Fin 3) (e : Fin 1024) (f : Fin 512) :
    transpose ⟨3, ![3, 1024, 512]⟩ [2, 1, 0] cw h (ix3 j e f) = cw (ix3 f e j) :=
  transpose_apply _ cw h (ix3 j e f) (ix3 f e j) (fun a => match a with
    | ⟨0, _⟩ => rfl
    | ⟨1, _⟩ => rfl
    | ⟨2, _⟩ => rfl)

/-- The result unflattened: entry (s, b, v) is entry (4·s + b, v). -/
theorem unflatten_apply (Y : (⟨2, ![4096, 32000]⟩ : Shape).Idx → α)
    (h : (⟨2, ![4096, 32000]⟩ : Shape).ShapeCasts ⟨3, ![1024, 4, 32000]⟩) (s : Fin 1024) (b : Fin 4) (v : Fin 32000) :
    shapeCast ⟨3, ![1024, 4, 32000]⟩ Y h (ix3 s b v) = Y (ix2 (row s b) v) :=
  shapeCast_apply Y h (ix3 s b v) (ix2 (row s b) v) (by
    rw [Shape.rowMajor_val_three, Shape.rowMajor_val_two]
    rfl)

end Cert.ConvNet

end
-- ==== Proof.KernelFold.lean ====
/-
  The kernel's result, read back through its five stretches.

  The closing reshape unflattens the linear region's output; that output is the logits of the arrays the region is
  entered with — the convolution region's output, the vocabulary weight and the vocabulary bias as a row —; the
  convolution region's output is the hidden features of the three flattened windows of the embedded sequence, the
  reversed-axes taps and the feature bias as a row.  Every change of float format on the way is the identity on
  extended reals.  Entry (s, b, v) of the result is therefore the network's logit there.
-/
import proofs.«103292_j78769700209271_2_alg».proof.Proof.Gen.KernelIdeal.Frame
import proofs.«103292_j78769700209271_2_alg».proof.Proof.Spec
import proofs.«103292_j78769700209271_2_alg».proof.Proof.Layout
import Idealize.ShloMosaic.Lib.StableHlo.Run
import Idealize.ShloMosaic.Lib.ValueLayout

set_option maxRecDepth 16384

noncomputable section

namespace Cert.KernelIdeal.Fold

open Cert.KernelIdeal Cert.KernelIdeal.Gen Cert.ConvNet
open Idealize.ShloMosaic Idealize.ShloMosaic.TcCoe Idealize.ShloMosaic.Tactic Idealize.ShloMosaic.ValueIdx
open Idealize.SL.Sem Idealize.ShloMosaic.StableHlo
open scoped BigOperators

/-- The embedded, padded token sequence: two rows of token 0 are put before the tokens, a negative token is moved up
    by the vocabulary size, and each token's row of the table is looked up. -/
def embedded (x0 : (⟨S1024x4, .i32⟩ : BufTy).Contents (Elt Ideal)) (x1 : (⟨S32000x1024, .f32⟩ : BufTy).Contents (Elt Ideal)) :
    (⟨S1026x4x1024, .f32⟩ : BufTy).Contents (Elt Ideal) :=
  Host.gather gather_S32000x1024_S1026x4x1_S1026x4x1024_2_0_n_n_0_2_11024 x1
    (broadcastInDim S1026x4x1 ![0, 1] bcast_S1026x4_S1026x4x1_0_1
      (select (cmpi .slt (concatenate S1026x4 0 [⟨S2x4, broadcastInDim S2x4 ![] bcast_S_S2x4 (constantI S_ 32 0#32)⟩, ⟨S1024x4, x0⟩] concatenates_S2x4_S1024x4_S1026x4_d0) (broadcastInDim S1026x4 ![] bcast_S_S1026x4 (constantI S_ 32 0#32)))
        (addi (concatenate S1026x4 0 [⟨S2x4, broadcastInDim S2x4 ![] bcast_S_S2x4 (constantI S_ 32 0#32)⟩, ⟨S1024x4, x0⟩] concatenates_S2x4_S1024x4_S1026x4_d0) (broadcastInDim S1026x4 ![] bcast_S_S1026x4 (constantI S_ 32 32000#32)))
        (concatenate S1026x4 0 [⟨S2x4, broadcastInDim S2x4 ![] bcast_S_S2x4 (constantI S_ 32 0#32)⟩, ⟨S1024x4, x0⟩] concatenates_S2x4_S1024x4_S1026x4_d0)))

variable (m : (ℓ : Loc nD τ sig) → Buf (Elt Ideal) ℓ) (ρ : Dev nD → PrngReg)

/-! ## What the convolution region is entered with -/

/-- Region 0's window 0 array: the window of 1024 positions starting at row 0, flattened. -/
theorem entry_v11 (c : Dev nD) : (V1 m ρ c main_v11 : FVec Ideal S4096x1024 .bf16)
    = shapeCast S4096x1024 (extractStridedSlice S1024x4x1024 ![0, 0, 0]
        (truncf (F := Ideal) .bf16 (embedded (m ((c : Thread nD τ).loc main_arg0)) (m ((c : Thread nD τ).loc main_arg1))) bitsLt_bf16_f32) slices_S1026x4x1024_S1024x4x1024_0_0_0)
        shapeCasts_S1024x4x1024_S4096x1024 := by
  show StableHlo.after hostOps0 (W0 m ρ c) (Proc.devRef .tc main_v11) = _
  after_results
  rfl

/-- Region 0's window 1 array: the window of 1024 positions starting at row 1, flattened. -/
theorem entry_v13 (c : Dev nD) : (V1 m ρ c main_v13 : FVec Ideal S4096x1024 .bf16)
    = shapeCast S4096x1024 (extractStridedSlice S1024x4x1024 ![1, 0, 0]
        (truncf (F := Ideal) .bf16 (embedded (m ((c : Thread nD τ).loc main_arg0)) (m ((c : Thread nD τ).loc main_arg1))) bitsLt_bf16_f32) slices_S1026x4x1024_S1024x4x1024_1_0_0)
        shapeCasts_S1024x4x1024_S4096x1024 := by
  show StableHlo.after hostOps0 (W0 m ρ c) (Proc.devRef .tc main_v13) = _
  after_results
  rfl

/-- Region 0's window 2 array: the window of 1024 positions starting at row 2, flattened. -/
theorem entry_v15 (c : Dev nD) : (V1 m ρ c main_v15 : FVec Ideal S4096x1024 .bf16)
    = shapeCast S4096x1024 (extractStridedSlice S1024x4x1024 ![2, 0, 0]
        (truncf (F := Ideal) .bf16 (embedded (m ((c : Thread nD τ).loc main_arg0)) (m ((c : Thread nD τ).loc main_arg1))) bitsLt_bf16_f32) slices_S1026x4x1024_S1024x4x1024_2_0_0)
        shapeCasts_S1024x4x1024_S4096x1024 := by
  show StableHlo.after hostOps0 (W0 m ρ c) (Proc.devRef .tc main_v15) = _
  after_results
  rfl

/-- Its taps: the convolution weight with the axes reversed. -/
theorem entry_v17 (c : Dev nD) : (V1 m ρ c main_v17 : FVec Ideal S3x1024x512 .bf16)
    = truncf (F := Ideal) .bf16 (transpose S3x1024x512 [2, 1, 0] (m ((c : Thread nD τ).loc main_arg2)) transposes_S512x1024x3_S3x1024x512_2_1_0) bitsLt_bf16_f32 := by
  show StableHlo.after hostOps0 (W0 m ρ c) (Proc.devRef .tc main_v17) = _
  after_results

/-- Its bias: the feature bias as a one-row array. -/
theorem entry_v18 (c : Dev nD) : (V1 m ρ c main_v18 : FVec Ideal S1x512 .f32) = shapeCast S1x512 (m ((c : Thread nD τ).loc main_arg3)) shapeCasts_S512_S1x512 := by
  show StableHlo.after hostOps0 (W0 m ρ c) (Proc.devRef .tc main_v18) = _
  after_results
  rfl

/-! ## What the linear region is entered with -/

/-- The first stretch leaves the vocabulary weight alone, … -/
theorem kept_arg4 (c : Dev nD) : W1 m ρ c (Proc.devRef .tc main_arg4) = (m ((c : Thread nD τ).loc main_arg4)) := by
  show StableHlo.after hostOps0 (W0 m ρ c) (Proc.devRef .tc main_arg4) = _
  after_results

/-- … and the vocabulary bias. -/
theorem kept_arg5 (c : Dev nD) : W1 m ρ c (Proc.devRef .tc main_arg5) = (m ((c : Thread nD τ).loc main_arg5)) := by
  show StableHlo.after hostOps0 (W0 m ρ c) (Proc.devRef .tc main_arg5) = _
  after_results

/-- Its weight: the vocabulary weight. -/
theorem entry_v20 (c : Dev nD) : (V3 m ρ c main_v20 : FVec Ideal S32000x512 .bf16) = truncf (F := Ideal) .bf16 (m ((c : Thread nD τ).loc main_arg4)) bitsLt_bf16_f32 := by
  show StableHlo.after hostOps1 (W2 m ρ c) (Proc.devRef .tc main_v20) = _
  after_results
  exact congrArg (fun y => truncf (F := Ideal) .bf16 y bitsLt_bf16_f32) ((W2_of_ne m ρ c main_arg4 (by decide)).trans (kept_arg4 m ρ c))

/-- Its bias: the vocabulary bias as a one-row array. -/
theorem entry_v21 (c : Dev nD) : (V3 m ρ c main_v21 : FVec Ideal S1x32000 .f32) = shapeCast S1x32000 (m ((c : Thread nD τ).loc main_arg5)) shapeCasts_S32000_S1x32000 := by
  show StableHlo.after hostOps1 (W2 m ρ c) (Proc.devRef .tc main_v21) = _
  after_results
  exact congrArg (fun y => shapeCast S1x32000 y shapeCasts_S32000_S1x32000) ((W2_of_ne m ρ c main_arg5 (by decide)).trans (kept_arg5 m ρ c))

section Regions

-- the two regions' outputs as whole-array functions of the arrays each region is entered with
variable (hconv : ∀ (V : (c : Dev nD) → (b : Ref sig .tc) → Buf (Elt Ideal) ((c : Thread nD τ).loc b)) (c : Dev nD),
      (dat0 (F := Ideal) V c).arrAt 5 cfg0.N = hiddenArr (V c main_v11) (V c main_v13) (V c main_v15) (V c main_v17) (V c main_v18))
  (hlin : ∀ (V : (c : Dev nD) → (b : Ref sig .tc) → Buf (Elt Ideal) ((c : Thread nD τ).loc b)) (c : Dev nD),
      (dat1 (F := Ideal) V c).arrAt 3 cfg1.N = logitArr (V c main_v22) (V c main_v20) (V c main_v21))

include hconv hlin

/-- The linear region's left operand: the convolution region's output. -/
theorem entry_v22 (c : Dev nD) : (V3 m ρ c main_v22 : FVec Ideal S4096x512 .bf16)
    = truncf (F := Ideal) .bf16 (hiddenArr (V1 m ρ c main_v11) (V1 m ρ c main_v13) (V1 m ρ c main_v15) (V1 m ρ c main_v17) (V1 m ρ c main_v18)) bitsLt_bf16_f32 := by
  show StableHlo.after hostOps1 (W2 m ρ c) (Proc.devRef .tc main_v22) = _
  after_results
  exact congrArg (fun y => truncf (F := Ideal) .bf16 y bitsLt_bf16_f32) ((W2_arr m ρ c 5).trans (hconv (V1 m ρ) c))

/-- The result: the linear region's output, unflattened. -/
theorem result_eq (c : Dev nD) : (W5 m ρ c (Proc.devRef .tc main_v24) : FVec Ideal S1024x4x32000 .f32)
    = shapeCast S1024x4x32000 (logitArr (V3 m ρ c main_v22) (V3 m ρ c main_v20) (V3 m ρ c main_v21)) shapeCasts_S4096x32000_S1024x4x32000 := by
  show StableHlo.after hostOps2 (W4 m ρ c) (Proc.devRef .tc main_v24) = _
  after_results
  exact congrArg (fun y => shapeCast S1024x4x32000 y shapeCasts_S4096x32000_S1024x4x32000) ((W4_arr m ρ c 3).trans (hlin (V3 m ρ) c))

/-- THE KERNEL'S RESULT at (s, b, v) is the network's logit there: row 4·s + b of the linear region's output reads
    row 4·s + b of the hidden features, whose windows read positions s, s + 1, s + 2 of the embedded sequence. -/
theorem result_entry (c : Dev nD) (s : Fin 1024) (b : Fin 4) (v : Fin 32000) :
    W5 m ρ c (Proc.devRef .tc main_v24) (ix3 s b v)
      = netOut (embedded (m ((c : Thread nD τ).loc main_arg0)) (m ((c : Thread nD τ).loc main_arg1))) (m ((c : Thread nD τ).loc main_arg2)) (m ((c : Thread nD τ).loc main_arg3)) (m ((c : Thread nD τ).loc main_arg4)) (m ((c : Thread nD τ).loc main_arg5)) s b v := by
  refine (congrFun (result_eq m ρ hconv hlin c) (ix3 s b v)).trans ?_
  refine (unflatten_apply _ shapeCasts_S4096x32000_S1024x4x32000 s b v).trans ?_
  rw [logitArr_apply]
  unfold logit netOut
  refine congrArg₂ (· + ·) (Finset.sum_congr rfl fun h _ => congrArg₂ (· * ·) ?_ ?_) ?_
  · refine (congrFun (entry_v22 m ρ hconv hlin c) (ix2 (row s b) h)).trans ?_
    refine (show _ = Cert.ConvNet.hidden (V1 m ρ c main_v11) (V1 m ρ c main_v13) (V1 m ρ c main_v15) (V1 m ρ c main_v17) (V1 m ρ c main_v18) (row s b) h from rfl).trans ?_
    unfold Cert.ConvNet.hidden Cert.ConvNet.netHidden
    refine congrArg (max · 0) (congrArg₂ (· + ·) (congrArg₂ (· + ·) (congrArg₂ (· + ·) ?_ ?_) ?_) ?_)
    · unfold tap
      refine Finset.sum_congr rfl fun e _ => congrArg₂ (· * ·) ?_ ?_
      · exact (congrFun (entry_v11 m ρ c) _).trans
          (window_flat_apply (truncf (F := Ideal) .bf16 (embedded (m ((c : Thread nD τ).loc main_arg0)) (m ((c : Thread nD τ).loc main_arg1))) bitsLt_bf16_f32) 0 _ _ s b e)
      · exact (congrFun (entry_v17 m ρ c) _).trans
          (reversed_axes_apply (m ((c : Thread nD τ).loc main_arg2)) transposes_S512x1024x3_S3x1024x512_2_1_0 0 e h)
    · unfold tap
      refine Finset.sum_congr rfl fun e _ => congrArg₂ (· * ·) ?_ ?_
      · exact (congrFun (entry_v13 m ρ c) _).trans
          (window_flat_apply (truncf (F := Ideal) .bf16 (embedded (m ((c : Thread nD τ).loc main_arg0)) (m ((c : Thread nD τ).loc main_arg1))) bitsLt_bf16_f32) 1 _ _ s b e)
      · exact (congrFun (entry_v17 m ρ c) _).trans
          (reversed_axes_apply (m ((c : Thread nD τ).loc main_arg2)) transposes_S512x1024x3_S3x1024x512_2_1_0 1 e h)
    · unfold tap
      refine Finset.sum_congr rfl fun e _ => congrArg₂ (· * ·) ?_ ?_
      · exact (congrFun (entry_v15 m ρ c) _).trans
          (window_flat_apply (truncf (F := Ideal) .bf16 (embedded (m ((c : Thread nD τ).loc main_arg0)) (m ((c : Thread nD τ).loc main_arg1))) bitsLt_bf16_f32) 2 _ _ s b e)
      · exact (congrFun (entry_v17 m ρ c) _).trans
          (reversed_axes_apply (m ((c : Thread nD τ).loc main_arg2)) transposes_S512x1024x3_S3x1024x512_2_1_0 2 e h)
    · exact (congrFun (entry_v18 m ρ c) _).trans (shapeCast_a_1a_apply (m ((c : Thread nD τ).loc main_arg3)) shapeCasts_S512_S1x512 0 h)
  · exact congrFun (entry_v20 m ρ c) (ix2 v h)
  · exact (congrFun (entry_v21 m ρ c) _).trans (shapeCast_a_1a_apply (m ((c : Thread nD τ).loc main_arg5)) shapeCasts_S32000_S1x32000 0 v)

end Regions

end Cert.KernelIdeal.Fold

end
-- ==== Proof.RefEntry.lean ====
/-
  The reference, entry by entry.

  The reference pads the token sequence, embeds it, and computes each hidden feature as the bias plus three inner
  products — position s, s + 1 and s + 2 of the embedded sequence against the three tap rows of the feature — taken
  in that order, then the maximum with zero; a logit is the inner product of the hidden features with a vocabulary
  row, plus the vocabulary bias.  Read at (s, b, v) that is the network's output, the four-term sum being the same
  whatever the order its terms are added in.
-/
import proofs.«103292_j78769700209271_2_alg».proof.Proof.Gen.ReferenceIdeal.Read
import proofs.«103292_j78769700209271_2_alg».proof.Proof.Spec
import Idealize.ShloMosaic.PureOps.Ideal.Laws

set_option maxRecDepth 16384

noncomputable section

namespace Cert.ReferenceIdeal.Entry

open Cert.ReferenceIdeal Cert.ReferenceIdeal.Read Cert.ConvNet
open Idealize.ShloMosaic Idealize.ShloMosaic.ValueIdx
open scoped BigOperators

variable (x0 : (⟨S1024x4, .i32⟩ : BufTy).Contents (Elt Ideal)) (x1 : (⟨S32000x1024, .f32⟩ : BufTy).Contents (Elt Ideal))
  (x2 : (⟨S512x1024x3, .f32⟩ : BufTy).Contents (Elt Ideal)) (x3 : (⟨S512, .f32⟩ : BufTy).Contents (Elt Ideal))
  (x4 : (⟨S32000x512, .f32⟩ : BufTy).Contents (Elt Ideal)) (x5 : (⟨S32000, .f32⟩ : BufTy).Contents (Elt Ideal))

/-- Tap 0 of the reference: its product of the window starting at row 0 with the weight's tap-0 slice, read at
    (s, b, h), is the inner product of position s + 0 with feature h's tap-0 row. -/
theorem tap0 (s : Fin 1024) (b : Fin 4) (h : Fin 512) :
    val_main_v12 (F := Ideal) x0 x1 x2 (ix3 s b h)
      = ∑ e : Fin 1024, val_main_v8 (F := Ideal) x0 x1 (ix3 (shift s 0) b e) * x2 (ix3 h e 0) := by
  rw [val_main_v12_apply]
  refine Finset.sum_congr rfl fun e _ => ?_
  have e1 : idx_main_v9 (lidx_main_v12 (ix3 s b h) e) = ix3 (shift s 0) b e := funext fun a => Fin.ext (by
    match a with
    | ⟨0, _⟩ => show s.val = s.val + 0; omega
    | ⟨1, _⟩ => rfl
    | ⟨2, _⟩ => rfl)
  have e2 : idx_main_v10 (idx_main_v11 (ridx_main_v12 (ix3 s b h) e)) = ix3 h e 0 := funext fun a => Fin.ext (by
    match a with
    | ⟨0, _⟩ => show (h.val * 1024 + e.val) / 1024 = h.val; have := e.isLt; omega
    | ⟨1, _⟩ => show (h.val * 1024 + e.val) / 1 % 1024 = e.val; have := e.isLt; omega
    | ⟨2, _⟩ => show 0 = 0; omega)
  exact congrArg₂ (· * ·) ((val_main_v9_apply x0 x1 _).trans (congrArg _ e1))
    (((val_main_v11_apply x2 _).trans (val_main_v10_apply x2 _)).trans (congrArg x2 e2))

/-- Tap 1 of the reference: its product of the window starting at row 1 with the weight's tap-1 slice, read at
    (s, b, h), is the inner product of position s + 1 with feature h's tap-1 row. -/
theorem tap1 (s : Fin 1024) (b : Fin 4) (h : Fin 512) :
    val_main_v19 (F := Ideal) x0 x1 x2 (ix3 s b h)
      = ∑ e : Fin 1024, val_main_v8 (F := Ideal) x0 x1 (ix3 (shift s 1) b e) * x2 (ix3 h e 1) := by
  rw [val_main_v19_apply]
  refine Finset.sum_congr rfl fun e _ => ?_
  have e1 : idx_main_v16 (lidx_main_v19 (ix3 s b h) e) = ix3 (shift s 1) b e := funext fun a => Fin.ext (by
    match a with
    | ⟨0, _⟩ => show 1 + s.val = s.val + 1; omega
    | ⟨1, _⟩ => rfl
    | ⟨2, _⟩ => rfl)
  have e2 : idx_main_v17 (idx_main_v18 (ridx_main_v19 (ix3 s b h) e)) = ix3 h e 1 := funext fun a => Fin.ext (by
    match a with
    | ⟨0, _⟩ => show (h.val * 1024 + e.val) / 1024 = h.val; have := e.isLt; omega
    | ⟨1, _⟩ => show (h.val * 1024 + e.val) / 1 % 1024 = e.val; have := e.isLt; omega
    | ⟨2, _⟩ => show 1 + 0 = 1; omega)
  exact congrArg₂ (· * ·) ((val_main_v16_apply x0 x1 _).trans (congrArg _ e1))
    (((val_main_v18_apply x2 _).trans (val_main_v17_apply x2 _)).trans (congrArg x2 e2))

/-- Tap 2 of the reference: its product of the window starting at row 2 with the weight's tap-2 slice, read at
    (s, b, h), is the inner product of position s + 2 with feature h's tap-2 row. -/
theorem tap2 (s : Fin 1024) (b : Fin 4) (h : Fin 512) :
    val_main_v24 (F := Ideal) x0 x1 x2 (ix3 s b h)
      = ∑ e : Fin 1024, val_main_v8 (F := Ideal) x0 x1 (ix3 (shift s 2) b e) * x2 (ix3 h e 2) := by
  rw [val_main_v24_apply]
  refine Finset.sum_congr rfl fun e _ => ?_
  have e1 : idx_main_v21 (lidx_main_v24 (ix3 s b h) e) = ix3 (shift s 2) b e := funext fun a => Fin.ext (by
    match a with
    | ⟨0, _⟩ => show 2 + s.val = s.val + 2; omega
    | ⟨1, _⟩ => rfl
    | ⟨2, _⟩ => rfl)
  have e2 : idx_main_v22 (idx_main_v23 (ridx_main_v24 (ix3 s b h) e)) = ix3 h e 2 := funext fun a => Fin.ext (by
    match a with
    | ⟨0, _⟩ => show (h.val * 1024 + e.val) / 1024 = h.val; have := e.isLt; omega
    | ⟨1, _⟩ => show (h.val * 1024 + e.val) / 1 % 1024 = e.val; have := e.isLt; omega
    | ⟨2, _⟩ => show 2 + 0 = 2; omega)
  exact congrArg₂ (· * ·) ((val_main_v21_apply x0 x1 _).trans (congrArg _ e1))
    (((val_main_v23_apply x2 _).trans (val_main_v22_apply x2 _)).trans (congrArg x2 e2))

/-- The feature bias broadcast over positions and batch entries, read at (s, b, h), is the bias at h. -/
theorem bias_h (s : Fin 1024) (b : Fin 4) (h : Fin 512) : val_main_v14 (F := Ideal) x3 (ix3 s b h) = x3 (ix1 h) := by
  rw [val_main_v14_apply, val_main_v13_apply]
  exact congrArg x3 (funext fun a => Fin.ext (by match a with | ⟨0, _⟩ => rfl))

/-- The rectifier's zero array holds zero everywhere. -/
theorem zero_h (i : S1024x4x512.Idx) : val_main_call0_v0 (F := Ideal) i = 0 := by
  rw [val_main_call0_v0_apply, val_main_call0_cst_apply, Ideal.ofBits_def, Ideal.ofBits_zero_f32]

/-- The reference's hidden feature at (s, b, h): the bias and the three taps, added bias first, are the three taps
    added first and the bias last — a sum of four extended reals does not depend on its order. -/
theorem hidden_eq (s : Fin 1024) (b : Fin 4) (h : Fin 512) :
    val_main_v26 (F := Ideal) x0 x1 x2 x3 (ix3 s b h) = netHidden (val_main_v8 (F := Ideal) x0 x1) x2 x3 s b h := by
  rw [val_main_v26_apply, val_main_v25_apply, val_main_v20_apply, val_main_v15_apply, zero_h, bias_h, tap0, tap1, tap2]
  simp only [Ideal.addf_def, Ideal.maximumf_def]
  unfold netHidden
  refine congrArg (max · 0) ?_
  ac_rfl

/-- The vocabulary bias broadcast over positions and batch entries, read at (s, b, v), is the bias at v. -/
theorem bias_v (s : Fin 1024) (b : Fin 4) (v : Fin 32000) : val_main_v29 (F := Ideal) x5 (ix3 s b v) = x5 (ix1 v) := by
  rw [val_main_v29_apply, val_main_v28_apply]
  exact congrArg x5 (funext fun a => Fin.ext (by match a with | ⟨0, _⟩ => rfl))

/-- THE REFERENCE'S RESULT at (s, b, v) is the network's logit there, over the embedded sequence the reference's
    own gather produces. -/
theorem out_eq (s : Fin 1024) (b : Fin 4) (v : Fin 32000) :
    val_main_v30 (F := Ideal) x0 x1 x2 x3 x4 x5 (ix3 s b v)
      = netOut (val_main_v8 (F := Ideal) x0 x1) x2 x3 x4 x5 s b v := by
  rw [val_main_v30_apply, val_main_v27_apply, bias_v]
  simp only [Ideal.addf_def]
  unfold netOut
  refine congrArg (· + x5 (ix1 v)) (Finset.sum_congr rfl fun h _ => ?_)
  have el : lidx_main_v27 (ix3 s b v) h = ix3 s b h := funext fun a => Fin.ext (by
    match a with
    | ⟨0, _⟩ => rfl
    | ⟨1, _⟩ => rfl
    | ⟨2, _⟩ => rfl)
  have er : ridx_main_v27 (ix3 s b v) h = ix2 v h := funext fun a => Fin.ext (by
    match a with
    | ⟨0, _⟩ => rfl
    | ⟨1, _⟩ => rfl)
  rw [el, er, hidden_eq]

end Cert.ReferenceIdeal.Entry

end
-- ==== Proof.lean ====
/-
  A two-layer token network computed by two tiled kernels equals its plain reference, entry by entry, over the
  extended reals.

  Both programs pad the token sequence with two rows of token 0, embed it by the same table lookup, and compute
      hidden (s, b, h) = max (bias h + three inner products of positions s, s+1, s+2 against the taps of feature h) 0,
      logit  (s, b, v) = inner product of hidden (s, b, ·) with vocabulary row v, plus bias v.
  The kernel flattens (s, b) to the row 4·s + b, cuts the rows into blocks of 1024 (and the vocabulary into blocks of
  3200), and adds the bias after the three taps where the reference adds it before; over the extended reals a
  change of float format is the identity, a product into a zero accumulator is the plain sum, and a sum of four
  terms does not depend on the order they are added in, so no finiteness of the inputs is used.

  The modules: Spec (the two layers and the whole network as functions), ConvRegion and LinearRegion (each region's
  output array as its layer of the arrays the region is entered with), KernelRun (the kernel's run with the result
  named), Layout and KernelFold (the host re-layouts and the result read back to the launch memory), RefEntry (the
  reference read at an entry).  Here the two programs' embedded sequences are identified and the claims assembled.
-/
import proofs.«103292_j78769700209271_2_alg».proof.Defs
import proofs.«103292_j78769700209271_2_alg».proof.Proof.Gen.Kernel
import proofs.«103292_j78769700209271_2_alg».proof.Proof.Gen.Kernel.Skeleton
import proofs.«103292_j78769700209271_2_alg».proof.Proof.Gen.Kernel.Launch
import proofs.«103292_j78769700209271_2_alg».proof.Proof.Gen.Kernel.Points
import proofs.«103292_j78769700209271_2_alg».proof.Proof.Gen.Kernel.Frame
import proofs.«103292_j78769700209271_2_alg».proof.Proof.Gen.KernelIdeal
import proofs.«103292_j78769700209271_2_alg».proof.Proof.Gen.KernelIdeal.Skeleton
import proofs.«103292_j78769700209271_2_alg».proof.Proof.Gen.KernelIdeal.Launch
import proofs.«103292_j78769700209271_2_alg».proof.Proof.Gen.KernelIdeal.Points
import proofs.«103292_j78769700209271_2_alg».proof.Proof.Gen.KernelIdeal.Frame
import proofs.«103292_j78769700209271_2_alg».proof.Proof.Gen.ReferenceIdeal
import proofs.«103292_j78769700209271_2_alg».proof.Proof.Gen.ReferenceIdeal.Run
import proofs.«103292_j78769700209271_2_alg».proof.Proof.Gen.ReferenceIdeal.Read
import proofs.«103292_j78769700209271_2_alg».proof.Proof.Gen.Pre_finite_inputs
import proofs.«103292_j78769700209271_2_alg».proof.Proof.Spec
import proofs.«103292_j78769700209271_2_alg».proof.Proof.ConvRegion
import proofs.«103292_j78769700209271_2_alg».proof.Proof.LinearRegion
import proofs.«103292_j78769700209271_2_alg».proof.Proof.KernelRun
import proofs.«103292_j78769700209271_2_alg».proof.Proof.KernelFold
import proofs.«103292_j78769700209271_2_alg».proof.Proof.RefEntry
import Idealize.ShloMosaic.Adequacy
import Idealize.ShloMosaic.Init

set_option maxRecDepth 16384

noncomputable section

namespace Cert.Proof

open Idealize.ShloMosaic Idealize.ShloMosaic.ValueIdx Idealize.SL.Sem

/-- The two programs embed the padded token sequence by the same operations, so from the same tokens and the same
    table they hold the same array. -/
theorem embedded_eq (x0 : (⟨Cert.KernelIdeal.S1024x4, .i32⟩ : BufTy).Contents (Elt Ideal))
    (x1 : (⟨Cert.KernelIdeal.S32000x1024, .f32⟩ : BufTy).Contents (Elt Ideal)) :
    Cert.KernelIdeal.Fold.embedded x0 x1 = Cert.ReferenceIdeal.Read.val_main_v8 (F := Ideal) x0 x1 := rfl

/-- The word-level kernel runs and leaves its arguments alone. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the network's logits: the kernel's result read
    back through its two regions, the reference's read one operation at a time, meet entry by entry. -/
theorem algebraic : Cert.algebraic_KernelIdeal_ReferenceIdeal := by
  intro m ρ m' ρ' _ hagree
  refine ⟨fun c => Cert.KernelIdeal.Gen.W5 m ρ c (Proc.devRef .tc Cert.KernelIdeal.main_v24),
    Cert.KernelIdeal.Result.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq]
  funext i
  obtain ⟨s, b, v, rfl⟩ : ∃ (s : Fin 1024) (b : Fin 4) (v : Fin 32000), i = ix3 s b v := ⟨i 0, i 1, i 2, eq_ix3 i⟩
  refine (Cert.ReferenceIdeal.Entry.out_eq _ _ _ _ _ _ s b v).trans ?_
  refine Eq.trans ?_ (Cert.KernelIdeal.Fold.result_entry m ρ Cert.KernelIdeal.ConvRegion.final
    Cert.KernelIdeal.LinearRegion.final c s b v).symm
  rw [(hagree c).1, (hagree c).2.1, (hagree c).2.2.1, (hagree c).2.2.2.1, (hagree c).2.2.2.2.1, (hagree c).2.2.2.2.2,
    embedded_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
